-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S64x512 : Shape := ⟨2, ![64, 512]⟩
abbrev S64 : Shape := ⟨1, ![64]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x512 .f32) (main_arg6 : FVec F S64 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x4096x512 .f32) (main_arg1 : FVec F S8x4096x512 .f32) (main_arg2 : FVec F S8x4096x512 .f32) (main_arg3 : FVec F S64x512 .f32) (main_arg4 : FVec F S64 .f32) (main_arg5 : FVec F S64x512 .f32) (main_arg6 : FVec F S64 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x512 .f32 := Host.absf main_arg2
  let main_cst_2 : FVec F S_ .f32 := constant S_ .f32 0x7F800000#32
  let main_v10 : FVec F S8x4096x512 .f32 := broadcastInDim S8x4096x512 ![] bcast_S_S8x4096x512 main_cst_2
  let main_v11 : IVec S8x4096x512 1 := cmpf .olt main_v9 main_v10
  let main_c_3 : IVec S_ 1 := constantI S_ 1 1#1
  let main_v12 : IVec S_ 1 := (fun x v => Host.reduce IntOp.andi x v reducesTo_S8x4096x512_S_d0_1_2 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_v13 main_v16
-- ==== Kernel.lean ====
abbrev S8x4096x512 : Shape := ⟨3, ![8, 4096, 512]⟩
abbrev S64x512 : Shape := ⟨2, ![64, 512]⟩
abbrev S64 : Shape := ⟨1, ![64]⟩
abbrev S_ : Shape := ⟨0, ![]⟩
abbrev S1x2048x512 : Shape := ⟨3, ![1, 2048, 512]⟩
abbrev S1x128x512 : Shape := ⟨3, ![1, 128, 512]⟩
abbrev S2048x64 : Shape := ⟨2, ![2048, 64]⟩
abbrev S2048x1 : Shape := ⟨2, ![2048, 1]⟩
abbrev S2048x512 : Shape := ⟨2, ![2048, 512]⟩
abbrev S1x64 : Shape := ⟨2, ![1, 64]⟩
abbrev S128x512 : Shape := ⟨2, ![128, 512]⟩
abbrev S128x64 : Shape := ⟨2, ![128, 64]⟩
abbrev S2048x128 : Shape := ⟨2, ![2048, 128]⟩
abbrev S2048 : Shape := ⟨1, ![2048]⟩

abbrev nBuf : Space → Nat
  | .hbm => 14
  | .vmem => 16
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S8x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S64x512, .f32⟩
  | .local _ .vmem, ⟨7, _⟩ => ⟨S64, .f32⟩
  | .local _ .vmem, ⟨8, _⟩ => ⟨S64x512, .f32⟩
  | .local _ .vmem, ⟨9, _⟩ => ⟨S64, .f32⟩
  | .local _ .vmem, ⟨10, _⟩ => ⟨S1x2048x512, .f32⟩
  | .local _ .vmem, ⟨11, _⟩ => ⟨S1x2048x512, .f32⟩
  | .local _ .vmem, ⟨12, _⟩ => ⟨S2048x64, .f32⟩
  | .local _ .vmem, ⟨13, _⟩ => ⟨S2048x1, .f32⟩
  | .local _ .vmem, ⟨14, _⟩ => ⟨S2048x1, .f32⟩
  | .local _ .vmem, ⟨15, _⟩ => ⟨S2048x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![8, 2, 32], ![false, false, false]⟩

def k0_cond2 (i : grid0.Coords) : BitVec 1 :=
  let arg2 : BitVec 32 := BitVec.ofNat 32 (i 2).val
  let c31_i32 : BitVec 32 := 31#32
  let v50 : BitVec 1 := Scalar.cmpi .eq arg2 c31_i32
  let v51 : BitVec 32 := Scalar.extui v50
  let c0_i32_29 : BitVec 32 := 0#32
  let v52 : BitVec 1 := Scalar.cmpi .ne v51 c0_i32_29
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bcast_S_S64x512 : S_.BroadcastsInDim S64x512 (![] : Fin 0 → Fin S64x512.rank)
  bcast_S_S64 : S_.BroadcastsInDim S64 (![] : Fin 0 → Fin S64.rank)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  broadcasts_S1x64_S128x64 : S1x64.Broadcasts S128x64
  reduces_S2048x128_S2048 : S2048x128.Reduces [1] S2048
  shapeCasts_S2048_S2048x1 : S2048.ShapeCasts S2048x1
  broadcasts_S2048x1_S2048x128 : S2048x1.Broadcasts S2048x128
  broadcasts_S2048x1_S2048x512 : S2048x1.Broadcasts S2048x512
  shapeCasts_S2048x512_S1x2048x512 : S2048x512.ShapeCasts S1x2048x512
  dot_S2048x512_S64x512_S2048x64_1_1_0_0_n_n_wf : DotDims.WF S2048x512 S64x512 S2048x64 [1] [1] [0] [0] [] []
  dot_S128x512_S64x512_S128x64_1_1_0_0_n_n_wf : DotDims.WF S128x512 S64x512 S128x64 [1] [1] [0] [0] [] []
  dot_S2048x64_S128x64_S2048x128_1_1_0_0_n_n_wf : DotDims.WF S2048x64 S128x64 S2048x128 [1] [1] [0] [0] [] []
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x4096x512.size a
  hwx0_0 : ∀ i : grid0.Coords, EltTy.bits .f32 = 32 ∨ (Rect.block (s := S8x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x4096x512.size a
  hwx0_1 : ∀ i : grid0.Coords, EltTy.bits .f32 = 32 ∨ (Rect.block (s := S8x4096x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x4096x512.size a
  hwx0_2 : ∀ i : grid0.Coords, EltTy.bits .f32 = 32 ∨ (Rect.block (s := S8x4096x512) S1x128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .f32 = 32 ∨ (Rect.block (s := S64x512) S64x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x512.size a ≤ S8x4096x512.size a
  hwx0_7 : ∀ i : grid0.Coords, EltTy.bits .f32 = 32 ∨ (Rect.block (s := S8x4096x512) S1x2048x512.size (cc0_transform_7 i) (hinb0_7 i)).WholeWords (EltTy.packing .f32)

variable [Facts₀]

def dot_S2048x512_S64x512_S2048x64_1_1_0_0_n_n : DotDims S2048x512 S64x512 S2048x64 where
  lhsContracting := [1]
  rhsContracting := [1]
  lhsNonContracting := [0]
  rhsNonContracting := [0]
  lhsBatch := []
  rhsBatch := []
  wf := dot_S2048x512_S64x512_S2048x64_1_1_0_0_n_n_wf
def dot_S128x512_S64x512_S128x64_1_1_0_0_n_n : DotDims S128x512 S64x512 S128x64 where
  lhsContracting := [1]
  rhsContracting := [1]
  lhsNonContracting := [0]
  rhsNonContracting := [0]
  lhsBatch := []
  rhsBatch := []
  wf := dot_S128x512_S64x512_S128x64_1_1_0_0_n_n_wf
def dot_S2048x64_S128x64_S2048x128_1_1_0_0_n_n : DotDims S2048x64 S128x64 S2048x128 where
  lhsContracting := [1]
  rhsContracting := [1]
  lhsNonContracting := [0]
  rhsNonContracting := [0]
  lhsBatch := []
  rhsBatch := []
  wf := dot_S2048x64_S128x64_S2048x128_1_1_0_0_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg1) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x4096x512 : Shape := ⟨3, ![8, 4096, 512]⟩
abbrev S64x512 : Shape := ⟨2, ![64, 512]⟩
abbrev S64 : Shape := ⟨1, ![64]⟩
abbrev S8x4096x64 : Shape := ⟨3, ![8, 4096, 64]⟩
abbrev S1x1x64 : Shape := ⟨3, ![1, 1, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S8x4096x64, .f32⟩
  | .hbm, ⟨8, _⟩ => ⟨S1x1x64, .f32⟩
  | .hbm, ⟨9, _⟩ => ⟨S8x4096x64, .f32⟩
  | .hbm, ⟨10, _⟩ => ⟨S8x4096x64, .f32⟩
  | .hbm, ⟨11, _⟩ => ⟨S8x4096x64, .f32⟩
  | .hbm, ⟨12, _⟩ => ⟨S1x1x64, .f32⟩
  | .hbm, ⟨13, _⟩ => ⟨S8x4096x64, .f32⟩
  | .hbm, ⟨14, _⟩ => ⟨S8x4096x64, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x512_S64x512_S8x4096x64_2_1_01_0_n_n_wf : DotDims.WF S8x4096x512 S64x512 S8x4096x64 [2] [1] [0, 1] [0] [] []
  dot_S8x4096x64_S8x4096x64_S8x4096x4096_2_2_1_1_0_0_wf : DotDims.WF S8x4096x64 S8x4096x64 S8x4096x4096 [2] [2] [1] [1] [0] [0]
  dot_S8x4096x4096_S8x4096x512_S8x4096x512_2_1_1_2_0_0_wf : DotDims.WF S8x4096x4096 S8x4096x512 S8x4096x512 [2] [1] [1] [2] [0] [0]

variable [Facts₀]

def dot_S8x4096x512_S64x512_S8x4096x64_2_1_01_0_n_n : DotDims S8x4096x512 S64x512 S8x4096x64 where
  lhsContracting := [2]
  rhsContracting := [1]
  lhsNonContracting := [0, 1]
  rhsNonContracting := [0]
  lhsBatch := []
  rhsBatch := []
  wf := dot_S8x4096x512_S64x512_S8x4096x64_2_1_01_0_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x512_S8x4096x512_2_1_1_2_0_0 : DotDims S8x4096x4096 S8x4096x512 S8x4096x512 where
  lhsContracting := [2]
  rhsContracting := [1]
  lhsNonContracting := [1]
  rhsNonContracting := [2]
  lhsBatch := [0]
  rhsBatch := [0]
  wf := dot_S8x4096x4096_S8x4096x512_S8x4096x512_2_1_1_2_0_0_wf

class Facts : Prop extends Facts₀ where

variable [Facts]
-- ==== Proof.Pieces.lean ====
/- What each case of the attention body leaves behind, as plain functions of what it loads.

   The body runs in three cases: a row's first key block (the projected queries are stored, the running maximum reset to
   minus infinity, the normaliser and the accumulator to zero, and then the common update runs on those fresh values),
   a middle block (the common update on what the point before left), and the last block (the common update and then the
   normalised output). Each lemma says that a scratch array or the output block ends at the corresponding composition of
   the body's pure payloads, at any float instance. -/
import proofs.«125804_j75179107549594_2_alg».proof.Proof.Gen.KernelIdeal.Frame
import Idealize.ShloMosaic.Lib.Pipeline.Value
import Idealize.ShloMosaic.Lib.Tactic

set_option maxRecDepth 16384

noncomputable section

namespace Cert.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl
theorem hz3 : (![0, 0, 0] : Fin 3 → Nat) = fun _ => 0 := funext fun a => by fin_cases a <;> rfl

/-! ## A row's first key block -/

theorem first_pq (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : cond0_0 i) (hc1 : ¬cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay5 x0 x3 x4 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

theorem first_max (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : cond0_0 i) (hc1 : ¬cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay3 (k0_pay11 x1 x5 x6 (k0_pay5 x0 x3 x4) (k0_pay6 (F := F))) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

theorem first_norm (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : cond0_0 i) (hc1 : ¬cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) :
    sout0_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay1 (k0_pay14 x1 x5 x6 (k0_pay5 x0 x3 x4) (k0_pay6 (F := F)) (k0_pay6 (F := F)) (k0_pay7 (F := F))) (k0_pay15 x1 x5 x6 (k0_pay5 x0 x3 x4) (k0_pay6 (F := F))) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

theorem first_acc (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : cond0_0 i) (hc1 : ¬cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) :
    sout0_A_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay2 (k0_pay9 x2) (k0_pay12 x1 x5 x6 (k0_pay5 x0 x3 x4) (k0_pay6 (F := F)) (k0_pay6 (F := F))) (k0_pay13 x1 x5 x6 (k0_pay5 x0 x3 x4) (k0_pay6 (F := F))) (k0_pay8 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x512) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

/-! ## A middle key block -/

theorem mid_max (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : ¬cond0_0 i) (hc1 : ¬cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) (xs0 : Vec F S2048x64 .f32) (xs1 : Vec F S2048x1 .f32) (xs2 : Vec F S2048x1 .f32) (xs3 : Vec F S2048x512 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay3 (k0_pay11 x1 x5 x6 xs0 xs1) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

theorem mid_norm (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : ¬cond0_0 i) (hc1 : ¬cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) (xs0 : Vec F S2048x64 .f32) (xs1 : Vec F S2048x1 .f32) (xs2 : Vec F S2048x1 .f32) (xs3 : Vec F S2048x512 .f32) :
    sout0_B_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay1 (k0_pay14 x1 x5 x6 xs0 xs1 xs1 xs2) (k0_pay15 x1 x5 x6 xs0 xs1) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

theorem mid_acc (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : ¬cond0_0 i) (hc1 : ¬cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) (xs0 : Vec F S2048x64 .f32) (xs1 : Vec F S2048x1 .f32) (xs2 : Vec F S2048x1 .f32) (xs3 : Vec F S2048x512 .f32) :
    sout0_B_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay2 (k0_pay9 x2) (k0_pay12 x1 x5 x6 xs0 xs1 xs1) (k0_pay13 x1 x5 x6 xs0 xs1) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

/-! ## A row's last key block -/

theorem last_max (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : ¬cond0_0 i) (hc1 : cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) (xs0 : Vec F S2048x64 .f32) (xs1 : Vec F S2048x1 .f32) (xs2 : Vec F S2048x1 .f32) (xs3 : Vec F S2048x512 .f32) :
    sout0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay3 (k0_pay11 x1 x5 x6 xs0 xs1) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

theorem last_norm (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : ¬cond0_0 i) (hc1 : cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) (xs0 : Vec F S2048x64 .f32) (xs1 : Vec F S2048x1 .f32) (xs2 : Vec F S2048x1 .f32) (xs3 : Vec F S2048x512 .f32) :
    sout0_C_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay1 (k0_pay14 x1 x5 x6 xs0 xs1 xs1 xs2) (k0_pay15 x1 x5 x6 xs0 xs1) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

theorem last_acc (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : ¬cond0_0 i) (hc1 : cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) (xs0 : Vec F S2048x64 .f32) (xs1 : Vec F S2048x1 .f32) (xs2 : Vec F S2048x1 .f32) (xs3 : Vec F S2048x512 .f32) :
    sout0_C_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay2 (k0_pay9 x2) (k0_pay12 x1 x5 x6 xs0 xs1 xs1) (k0_pay13 x1 x5 x6 xs0 xs1) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

theorem last_out (c : Dev nD) (i : grid0.Coords) (arg3 : Memref sig .tc .vmem S1x2048x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S64x512 .f32) (harg6 : arg6.IsWhole) (arg7 : Memref sig .tc .vmem S64 .f32) (harg7 : arg7.IsWhole) (arg8 : Memref sig .tc .vmem S64x512 .f32) (harg8 : arg8.IsWhole) (arg9 : Memref sig .tc .vmem S64 .f32) (harg9 : arg9.IsWhole) (arg10 : Memref sig .tc .vmem S1x2048x512 .f32) (harg10 : arg10.IsWhole) (arg11 : Memref sig .tc .vmem S2048x64 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x512 .f32) (harg14 : arg14.IsWhole) (hc0 : ¬cond0_0 i) (hc1 : cond0_1 i) (x0 : Vec F S1x2048x512 .f32) (x1 : Vec F S1x128x512 .f32) (x2 : Vec F S1x128x512 .f32) (x3 : Vec F S64x512 .f32) (x4 : Vec F S64 .f32) (x5 : Vec F S64x512 .f32) (x6 : Vec F S64 .f32) (xs0 : Vec F S2048x64 .f32) (xs1 : Vec F S2048x1 .f32) (xs2 : Vec F S2048x1 .f32) (xs3 : Vec F S2048x512 .f32) :
    out0_C_7 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay4 (k0_pay2 (k0_pay9 x2) (k0_pay12 x1 x5 x6 xs0 xs1 xs1) (k0_pay13 x1 x5 x6 xs0 xs1) xs3) (k0_pay1 (k0_pay14 x1 x5 x6 xs0 xs1 xs1 xs2) (k0_pay15 x1 x5 x6 xs0 xs1)) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x2048x512) hz3, View.ld_unit_zero (S := S1x128x512) hz3, View.ld_unit_zero (S := S64x512) hz2, View.ld_unit_zero (S := S64) hz1,
    View.ld_unit_zero (S := S2048x64) hz2, View.ld_unit_zero (S := S2048x1) hz2, View.ld_unit_zero (S := S2048x512) hz2,
    View.readCov_unit_zero (S := S2048x64) _ hz2, View.readCov_unit_zero (S := S2048x1) _ hz2, View.readCov_unit_zero (S := S2048x512) _ hz2]

end Cert.Pieces

end
-- ==== Proof.Steps.lean ====
/- The state of the attention body after each grid point, at any float instance: the four scratch arrays (projected
   queries, running maximum, normaliser, accumulator) after point t as the body's pure payloads applied to the point's
   input blocks and, except at a row's first key block, to the state the point before left; and at a row's last key
   block the output block as the normalising payload of the accumulator and the normaliser just computed. -/
import proofs.«125804_j75179107549594_2_alg».proof.Proof.Pieces

set_option maxRecDepth 16384

noncomputable section

namespace Cert.Steps

open Cert.KernelIdeal Cert.KernelIdeal.Gen Cert.Pieces Idealize.ShloMosaic Idealize.ShloMosaic.TcCoe Idealize.SL.Sem

variable {F : FTy → Type} [FloatOps F]
variable (m : (ℓ : Loc nD τ sig) → Buf (Elt F) ℓ)

/-- The state the point before t left (at t = 0 this is the state of point 0 itself and is never used). -/
abbrev prev (c : Dev nD) (t : Fin cfg0.N) :=
  outsAt0 m c (t.val - 1) (Nat.lt_of_le_of_lt (Nat.sub_le _ _) t.isLt)

/-- After a row's first key block. -/
theorem state_first (c : Dev nD) (t : Fin cfg0.N) (h0 : t.val % 32 = 0) (h1 : ¬t.val % 32 = 31) :
    (outsAt0 m c t.val t.isLt).2.1 = k0_pay5 (iblk m c 0 t) (iblk m c 3 t) (iblk m c 4 t)
    ∧ (outsAt0 m c t.val t.isLt).2.2.1 = k0_pay3 (k0_pay11 (iblk m c 1 t) (iblk m c 5 t) (iblk m c 6 t) (k0_pay5 (iblk m c 0 t) (iblk m c 3 t) (iblk m c 4 t)) (k0_pay6 (F := F)))
    ∧ (outsAt0 m c t.val t.isLt).2.2.2.1 = k0_pay1 (k0_pay14 (iblk m c 1 t) (iblk m c 5 t) (iblk m c 6 t) (k0_pay5 (iblk m c 0 t) (iblk m c 3 t) (iblk m c 4 t)) (k0_pay6 (F := F)) (k0_pay6 (F := F)) (k0_pay7 (F := F))) (k0_pay15 (iblk m c 1 t) (iblk m c 5 t) (iblk m c 6 t) (k0_pay5 (iblk m c 0 t) (iblk m c 3 t) (iblk m c 4 t)) (k0_pay6 (F := F)))
    ∧ (outsAt0 m c t.val t.isLt).2.2.2.2 = k0_pay2 (k0_pay9 (iblk m c 2 t)) (k0_pay12 (iblk m c 1 t) (iblk m c 5 t) (iblk m c 6 t) (k0_pay5 (iblk m c 0 t) (iblk m c 3 t) (iblk m c 4 t)) (k0_pay6 (F := F)) (k0_pay6 (F := F))) (k0_pay13 (iblk m c 1 t) (iblk m c 5 t) (iblk m c 6 t) (k0_pay5 (iblk m c 0 t) (iblk m c 3 t) (iblk m c 4 t)) (k0_pay6 (F := F))) (k0_pay8 (F := F)) := by
  rw [outsAt0_A m c t h0 h1]
  dsimp only
  refine ⟨?_, ?_, ?_, ?_⟩
  · exact first_pq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  · exact first_max c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  · exact first_norm c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  · exact first_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- After a middle key block. -/
theorem state_mid (c : Dev nD) (t : Fin cfg0.N) (h0 : ¬t.val % 32 = 0) (h1 : ¬t.val % 32 = 31) :
    (outsAt0 m c t.val t.isLt).2.1 = (prev m c t).2.1
    ∧ (outsAt0 m c t.val t.isLt).2.2.1 = k0_pay3 (k0_pay11 (iblk m c 1 t) (iblk m c 5 t) (iblk m c 6 t) (prev m c t).2.1 (prev m c t).2.2.1)
    ∧ (outsAt0 m c t.val t.isLt).2.2.2.1 = k0_pay1 (k0_pay14 (iblk m c 1 t) (iblk m c 5 t) (iblk m c 6 t) (prev m c t).2.1 (prev m c t).2.2.1 (prev m c t).2.2.1 (prev m c t).2.2.2.1) (k0_pay15 (iblk m c 1 t) (iblk m c 5 t) (iblk m c 6 t) (prev m c t).2.1 (prev m c t).2.2.1)
    ∧ (outsAt0 m c t.val t.isLt).2.2.2.2 = k0_pay2 (k0_pay9 (iblk m c 2 t)) (k0_pay12 (iblk m c 1 t) (iblk m c 5 t) (iblk m c 6 t) (prev m c t).2.1 (prev m c t).2.2.1 (prev m c t).2.2.1) (k0_pay13 (iblk m c 1 t) (iblk m c 5 t) (iblk m c 6 t) (prev m c t).2.1 (prev m c t).2.2.1) (prev m c t).2.2.2.2 := by
  rw [outsAt0_B m c t h0 h1]
  dsimp only
  refine ⟨rfl, ?_, ?_, ?_⟩
  · exact mid_max c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev m c t).2.1 (prev m c t).2.2.1 (prev m c t).2.2.2.1 (prev m c t).2.2.2.2
  · exact mid_norm c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev m c t).2.1 (prev m c t).2.2.1 (prev m c t).2.2.2.1 (prev m c t).2.2.2.2
  · exact mid_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev m c t).2.1 (prev m c t).2.2.1 (prev m c t).2.2.2.1 (prev m c t).2.2.2.2

/-- After a row's last key block: the scratch as after a middle block, and the output block normalised from it. -/
theorem state_last (c : Dev nD) (t : Fin cfg0.N) (h0 : ¬t.val % 32 = 0) (h1 : t.val % 32 = 31) :
    (outsAt0 m c t.val t.isLt).2.1 = (prev m c t).2.1
    ∧ (outsAt0 m c t.val t.isLt).2.2.1 = k0_pay3 (k0_pay11 (iblk m c 1 t) (iblk m c 5 t) (iblk m c 6 t) (prev m c t).2.1 (prev m c t).2.2.1)
    ∧ (outsAt0 m c t.val t.isLt).2.2.2.1 = k0_pay1 (k0_pay14 (iblk m c 1 t) (iblk m c 5 t) (iblk m c 6 t) (prev m c t).2.1 (prev m c t).2.2.1 (prev m c t).2.2.1 (prev m c t).2.2.2.1) (k0_pay15 (iblk m c 1 t) (iblk m c 5 t) (iblk m c 6 t) (prev m c t).2.1 (prev m c t).2.2.1)
    ∧ (outsAt0 m c t.val t.isLt).2.2.2.2 = k0_pay2 (k0_pay9 (iblk m c 2 t)) (k0_pay12 (iblk m c 1 t) (iblk m c 5 t) (iblk m c 6 t) (prev m c t).2.1 (prev m c t).2.2.1 (prev m c t).2.2.1) (k0_pay13 (iblk m c 1 t) (iblk m c 5 t) (iblk m c 6 t) (prev m c t).2.1 (prev m c t).2.2.1) (prev m c t).2.2.2.2
    ∧ (outsAt0 m c t.val t.isLt).1 = k0_pay4 (k0_pay2 (k0_pay9 (iblk m c 2 t)) (k0_pay12 (iblk m c 1 t) (iblk m c 5 t) (iblk m c 6 t) (prev m c t).2.1 (prev m c t).2.2.1 (prev m c t).2.2.1) (k0_pay13 (iblk m c 1 t) (iblk m c 5 t) (iblk m c 6 t) (prev m c t).2.1 (prev m c t).2.2.1) (prev m c t).2.2.2.2) (k0_pay1 (k0_pay14 (iblk m c 1 t) (iblk m c 5 t) (iblk m c 6 t) (prev m c t).2.1 (prev m c t).2.2.1 (prev m c t).2.2.1 (prev m c t).2.2.2.1) (k0_pay15 (iblk m c 1 t) (iblk m c 5 t) (iblk m c 6 t) (prev m c t).2.1 (prev m c t).2.2.1)) := by
  rw [outsAt0_C m c t h0 h1]
  dsimp only
  refine ⟨rfl, ?_, ?_, ?_, ?_⟩
  · exact last_max c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (prev m c t).2.1 (prev m c t).2.2.1 (prev m c t).2.2.2.1 (prev m c t).2.2.2.2
  · exact last_norm c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (prev m c t).2.1 (prev m c t).2.2.1 (prev m c t).2.2.2.1 (prev m c t).2.2.2.2
  · exact last_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (prev m c t).2.1 (prev m c t).2.2.1 (prev m c t).2.2.2.1 (prev m c t).2.2.2.2
  · exact last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (prev m c t).2.1 (prev m c t).2.2.1 (prev m c t).2.2.2.1 (prev m c t).2.2.2.2

end Cert.Steps

end
-- ==== Proof.LibMax.lean ====
/- Maxima over finite index sets in the extended reals: a fold of the maximum from minus infinity is a supremum, a
   reduction with the maximum over one axis of an array is the supremum over that axis's coordinates, and writing one
   constant at a family of positions of an array leaves the constant where a position lands and the array elsewhere. -/
import Idealize.ShloMosaic.PureOps.Ideal.Laws
import Idealize.ShloMosaic.Lib.ValueIdx
import Idealize.ShloMosaic.Lib.Pipeline.Value

noncomputable section

namespace Cert.LibMax

open Idealize.ShloMosaic

/-- The word of minus infinity is the least extended real. -/
theorem ofBits_neg_inf : Ideal.ofBits .f32 0xFF800000#32 = (⊥ : EReal) := by
  simp [Ideal.ofBits, Ideal.ieee]

/-- A fold of the maximum from the least element is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- A fold of the maximum from any start is the start joined with the supremum. -/
theorem fold_max_eq {ι : Type} (s : Finset ι) (b : EReal) (f : ι → EReal) : s.fold max b f = max b (s.sup f) := by
  classical
  induction s using Finset.induction_on with
  | empty => simp
  | insert a s ha ih => rw [Finset.fold_insert ha, Finset.sup_insert, ih, max_left_comm]

/-- The host's reduction with the maximum over ONE axis, from minus infinity, read at `j`: the supremum over that
    axis's coordinates `k` of the array at `j` with `k` inserted. -/
theorem hostReduce_max_single {s t : Shape} {a : Fin s.rank} (x : FVec Ideal s .f32)
    (h' : s.ReducesTo [a] t) (h : s.Reduces [a] t) (hu : 0 < (⟨0, ![]⟩ : Shape).numel) (j : t.Idx) :
    Host.reduce FloatOps.maximumf x (constant (F := Ideal) (⟨0, ![]⟩ : Shape) .f32 0xFF800000#32) h' hu j
      = Finset.univ.sup (fun k : Fin (s.size a) => x (h.lift j k)) := by
  rw [Host.reduce_eq_fold_single FloatOps.maximumf x _ h' h hu]
  show Finset.fold max (Ideal.ofBits .f32 0xFF800000#32) (x ∘ h.lift j) Finset.univ = _
  rw [ofBits_neg_inf, fold_max_bot]
  rfl

/-- Writing the constant `c` at every position a family of updates lands on (an update that lands nowhere is
    dropped): the result holds `c` where some update lands, and the array elsewhere. -/
theorem scatter_const_apply {s si u : Shape} {w : Nat} {α : Type} (d : ScatterDims s si u) (x : s.Idx → α)
    (idx : IVec si w) (c : α) (i' : s.Idx) :
    Host.scatter d (fun _ b => b) x idx (fun _ => c) i'
      = if ∃ j : u.Idx, d.resultIdx? j idx = some i' then c else x i' := by
  classical
  have key : ∀ (l : List (Fin u.numel)) (y : s.Idx → α),
      (l.foldl (fun r n =>
          match d.resultIdx? (u.rowMajor.symm n) idx with
          | some i => fun i' => if i' = i then (fun (_ : α) (b : α) => b) (r i) ((fun _ => c) (u.rowMajor.symm n)) else r i'
          | none => r) y) i'
        = if ∃ n ∈ l, d.resultIdx? (u.rowMajor.symm n) idx = some i' then c else y i' := by
    intro l
    induction l with
    | nil => intro y; simp
    | cons n l ih =>
      intro y
      rw [List.foldl_cons, ih]
      cases hg : d.resultIdx? (u.rowMajor.symm n) idx with
      | none =>
        simp only [List.mem_cons, exists_eq_or_imp, hg, reduceCtorEq, false_or]
      | some i =>
        simp only [List.mem_cons, exists_eq_or_imp, hg, Option.some.injEq]
        by_cases h1 : ∃ a ∈ l, d.resultIdx? (u.rowMajor.symm a) idx = some i'
        · rw [if_pos h1, if_pos (Or.inr h1)]
        · rw [if_neg h1]
          by_cases h2 : i' = i
          · rw [if_pos h2, if_pos (Or.inl h2.symm)]
          · rw [if_neg h2, if_neg (by rintro (h | h); exacts [h2 h.symm, h1 h])]
  unfold Host.scatter
  refine (key _ _).trans ?_
  refine if_congr ⟨fun ⟨n, _, hn⟩ => ⟨_, hn⟩, fun ⟨j, hj⟩ => ⟨u.rowMajor j, List.mem_finRange _, ?_⟩⟩ rfl rfl
  rw [Equiv.symm_apply_apply]; exact hj

end Cert.LibMax

end
-- ==== Proof.StepLayout.lean ====
/- Arrays read at an index given by coordinates: the two column forms of a row-wise quantity (a vector of one
   number per row kept as a column, and a column spread over the columns of a matrix), the four matrix products of
   the blockwise attention as sums over the contracted coordinate, and the sum and the maximum along the rows of a
   matrix. -/
import proofs.«125804_j75179107549594_2_alg».proof.Proof.Gen.KernelIdeal.Skeleton
import proofs.«125804_j75179107549594_2_alg».proof.Proof.LibMax
import Idealize.ShloMosaic.Lib.ValueLayout
import Idealize.ShloMosaic.Lib.ValueIdx
import Idealize.ShloMosaic.PureOps.Ideal.Laws

noncomputable section

open scoped BigOperators

namespace Cert.StepLayout

open Idealize.ShloMosaic Idealize.ShloMosaic.ValueIdx Cert.KernelIdeal

/-! ## The column forms -/

/-- A vector of length a kept as an [a, 1] column reads, at (i, u), the vector at i: the row-major position of
    (i, u) is i * 1 + u with u = 0. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum and the maximum along the rows of a matrix -/

/-- The sum over the second axis of an [a, b] matrix, read at row r, is the sum over the columns. -/
theorem lane_sum {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The maximum over the second axis of an [a, b] matrix, started from minus infinity and read at row r, is the
    supremum over the columns. -/
theorem lane_max {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup (fun k : Fin b => src (ix2 r k)) := by
  refine (Ideal.multiReduction_maximumf_single src _ h hφ hacc (ix1 r)).trans ?_
  show Finset.fold max (Ideal.ofBits .f32 0xFF800000#32) (src ∘ h.lift (ix1 r)) Finset.univ = _
  rw [Cert.LibMax.ofBits_neg_inf, Cert.LibMax.fold_max_bot]
  refine Finset.sup_congr rfl fun k _ => congrArg src (funext fun ax => Fin.ext ?_)
  match ax with
  | ⟨0, _⟩ => rfl
  | ⟨1, _⟩ => rfl

/-- The larger of two real numbers read in the extended reals is the larger of the readings: the reading is
    monotone. -/
theorem coe_max (x y : ℝ) : ((max x y : ℝ) : EReal) = max (x : EReal) (y : EReal) :=
  EReal.coe_strictMono.monotone.map_max

/-- The supremum of finitely many real numbers read in the extended reals is the reading of their supremum. -/
theorem coe_sup' {ι : Type} (s : Finset ι) (H : s.Nonempty) (f : ι → ℝ) :
    s.sup (fun k => ((f k : ℝ) : EReal)) = ((s.sup' H f : ℝ) : EReal) := by
  rw [Finset.comp_sup'_eq_sup'_comp H (fun x : ℝ => (x : EReal)) (fun x y => coe_max x y), Finset.sup'_eq_sup]
  rfl

/-! ## The four matrix products -/

/-- The left operand's row coordinate is the result's row coordinate. -/
theorem matmul_q_lhs (i : S2048x64.Idx) (q : dot_S2048x512_S64x512_S2048x64_1_1_0_0_n_n.contr.Idx) :
    (dot_S2048x512_S64x512_S2048x64_1_1_0_0_n_n.lhsIdx i q 0).val = (i 0).val := by
  unfold DotDims.lhsIdx
  rw [dif_neg (show ¬(0 : Fin S2048x512.rank) ∈ dot_S2048x512_S64x512_S2048x64_1_1_0_0_n_n.lhsBatch by decide), dif_pos (show (0 : Fin S2048x512.rank) ∈ dot_S2048x512_S64x512_S2048x64_1_1_0_0_n_n.lhsNonContracting by decide)]
  rfl
/-- The right operand's free coordinate is the result's column coordinate. -/
theorem matmul_q_rhs (i : S2048x64.Idx) (q : dot_S2048x512_S64x512_S2048x64_1_1_0_0_n_n.contr.Idx) :
    (dot_S2048x512_S64x512_S2048x64_1_1_0_0_n_n.rhsIdx i q 0).val = (i 1).val := by
  unfold DotDims.rhsIdx
  rw [dif_neg (show ¬(0 : Fin S64x512.rank) ∈ dot_S2048x512_S64x512_S2048x64_1_1_0_0_n_n.rhsBatch by decide), dif_pos (show (0 : Fin S64x512.rank) ∈ dot_S2048x512_S64x512_S2048x64_1_1_0_0_n_n.rhsNonContracting by decide)]
  rfl
/-- The query projection's product at (r, j): row r of the query block against row j of the weights, summed over the 512 features. -/
theorem matmul_q (x : FVec Ideal S2048x512 .bf16) (y : FVec Ideal S64x512 .bf16) (r : Fin 2048) (j : Fin 64) :
    matmul dot_S2048x512_S64x512_S2048x64_1_1_0_0_n_n none x y (constant (F := Ideal) S2048x64 .f32 0x00000000#32) (ix2 r j)
      = ∑ k : Fin 512, x (ix2 r k) * y (ix2 j k) := by
  simp only [matmul]
  rw [Ideal.matmul_constant_zero_apply, ← Equiv.sum_comp (contrEquiv1 dot_S2048x512_S64x512_S2048x64_1_1_0_0_n_n 512 rfl rfl).symm]
  refine Finset.sum_congr rfl fun k _ => ?_
  have hk := contrEquiv1_symm_val dot_S2048x512_S64x512_S2048x64_1_1_0_0_n_n 512 rfl rfl k
  have el : dot_S2048x512_S64x512_S2048x64_1_1_0_0_n_n.lhsIdx (ix2 r j) ((contrEquiv1 dot_S2048x512_S64x512_S2048x64_1_1_0_0_n_n 512 rfl rfl).symm k) = ix2 r k := funext fun a => Fin.ext (by
    match a with
    | ⟨0, _⟩ => exact matmul_q_lhs _ _
    | ⟨1, _⟩ => exact (dot_S2048x512_S64x512_S2048x64_1_1_0_0_n_n.lhsIdx_val_of_single rfl _ _).trans hk)
  have er : dot_S2048x512_S64x512_S2048x64_1_1_0_0_n_n.rhsIdx (ix2 r j) ((contrEquiv1 dot_S2048x512_S64x512_S2048x64_1_1_0_0_n_n 512 rfl rfl).symm k) = ix2 j k := funext fun a => Fin.ext (by
    match a with
    | ⟨0, _⟩ => exact matmul_q_rhs _ _
    | ⟨1, _⟩ => exact (dot_S2048x512_S64x512_S2048x64_1_1_0_0_n_n.rhsIdx_val_of_single rfl _ _).trans hk)
  rw [el, er]

/-- The left operand's row coordinate is the result's row coordinate. -/
theorem matmul_k_lhs (i : S128x64.Idx) (q : dot_S128x512_S64x512_S128x64_1_1_0_0_n_n.contr.Idx) :
    (dot_S128x512_S64x512_S128x64_1_1_0_0_n_n.lhsIdx i q 0).val = (i 0).val := by
  unfold DotDims.lhsIdx
  rw [dif_neg (show ¬(0 : Fin S128x512.rank) ∈ dot_S128x512_S64x512_S128x64_1_1_0_0_n_n.lhsBatch by decide), dif_pos (show (0 : Fin S128x512.rank) ∈ dot_S128x512_S64x512_S128x64_1_1_0_0_n_n.lhsNonContracting by decide)]
  rfl
/-- The right operand's free coordinate is the result's column coordinate. -/
theorem matmul_k_rhs (i : S128x64.Idx) (q : dot_S128x512_S64x512_S128x64_1_1_0_0_n_n.contr.Idx) :
    (dot_S128x512_S64x512_S128x64_1_1_0_0_n_n.rhsIdx i q 0).val = (i 1).val := by
  unfold DotDims.rhsIdx
  rw [dif_neg (show ¬(0 : Fin S64x512.rank) ∈ dot_S128x512_S64x512_S128x64_1_1_0_0_n_n.rhsBatch by decide), dif_pos (show (0 : Fin S64x512.rank) ∈ dot_S128x512_S64x512_S128x64_1_1_0_0_n_n.rhsNonContracting by decide)]
  rfl
/-- The key projection's product at (r, j): row r of the key block against row j of the weights, summed over the 512 features. -/
theorem matmul_k (x : FVec Ideal S128x512 .bf16) (y : FVec Ideal S64x512 .bf16) (r : Fin 128) (j : Fin 64) :
    matmul dot_S128x512_S64x512_S128x64_1_1_0_0_n_n none x y (constant (F := Ideal) S128x64 .f32 0x00000000#32) (ix2 r j)
      = ∑ k : Fin 512, x (ix2 r k) * y (ix2 j k) := by
  simp only [matmul]
  rw [Ideal.matmul_constant_zero_apply, ← Equiv.sum_comp (contrEquiv1 dot_S128x512_S64x512_S128x64_1_1_0_0_n_n 512 rfl rfl).symm]
  refine Finset.sum_congr rfl fun k _ => ?_
  have hk := contrEquiv1_symm_val dot_S128x512_S64x512_S128x64_1_1_0_0_n_n 512 rfl rfl k
  have el : dot_S128x512_S64x512_S128x64_1_1_0_0_n_n.lhsIdx (ix2 r j) ((contrEquiv1 dot_S128x512_S64x512_S128x64_1_1_0_0_n_n 512 rfl rfl).symm k) = ix2 r k := funext fun a => Fin.ext (by
    match a with
    | ⟨0, _⟩ => exact matmul_k_lhs _ _
    | ⟨1, _⟩ => exact (dot_S128x512_S64x512_S128x64_1_1_0_0_n_n.lhsIdx_val_of_single rfl _ _).trans hk)
  have er : dot_S128x512_S64x512_S128x64_1_1_0_0_n_n.rhsIdx (ix2 r j) ((contrEquiv1 dot_S128x512_S64x512_S128x64_1_1_0_0_n_n 512 rfl rfl).symm k) = ix2 j k := funext fun a => Fin.ext (by
    match a with
    | ⟨0, _⟩ => exact matmul_k_rhs _ _
    | ⟨1, _⟩ => exact (dot_S128x512_S64x512_S128x64_1_1_0_0_n_n.rhsIdx_val_of_single rfl _ _).trans hk)
  rw [el, er]

/-- The left operand's row coordinate is the result's row coordinate. -/
theorem matmul_s_lhs (i : S2048x128.Idx) (q : dot_S2048x64_S128x64_S2048x128_1_1_0_0_n_n.contr.Idx) :
    (dot_S2048x64_S128x64_S2048x128_1_1_0_0_n_n.lhsIdx i q 0).val = (i 0).val := by
  unfold DotDims.lhsIdx
  rw [dif_neg (show ¬(0 : Fin S2048x64.rank) ∈ dot_S2048x64_S128x64_S2048x128_1_1_0_0_n_n.lhsBatch by decide), dif_pos (show (0 : Fin S2048x64.rank) ∈ dot_S2048x64_S128x64_S2048x128_1_1_0_0_n_n.lhsNonContracting by decide)]
  rfl
/-- The right operand's free coordinate is the result's column coordinate. -/
theorem matmul_s_rhs (i : S2048x128.Idx) (q : dot_S2048x64_S128x64_S2048x128_1_1_0_0_n_n.contr.Idx) :
    (dot_S2048x64_S128x64_S2048x128_1_1_0_0_n_n.rhsIdx i q 0).val = (i 1).val := by
  unfold DotDims.rhsIdx
  rw [dif_neg (show ¬(0 : Fin S128x64.rank) ∈ dot_S2048x64_S128x64_S2048x128_1_1_0_0_n_n.rhsBatch by decide), dif_pos (show (0 : Fin S128x64.rank) ∈ dot_S2048x64_S128x64_S2048x128_1_1_0_0_n_n.rhsNonContracting by decide)]
  rfl
/-- The scores' product at (r, j): projected query row r against projected key row j, summed over the 64 projected features. -/
theorem matmul_s (x : FVec Ideal S2048x64 .bf16) (y : FVec Ideal S128x64 .bf16) (r : Fin 2048) (j : Fin 128) :
    matmul dot_S2048x64_S128x64_S2048x128_1_1_0_0_n_n none x y (constant (F := Ideal) S2048x128 .f32 0x00000000#32) (ix2 r j)
      = ∑ k : Fin 64, x (ix2 r k) * y (ix2 j k) := by
  simp only [matmul]
  rw [Ideal.matmul_constant_zero_apply, ← Equiv.sum_comp (contrEquiv1 dot_S2048x64_S128x64_S2048x128_1_1_0_0_n_n 64 rfl rfl).symm]
  refine Finset.sum_congr rfl fun k _ => ?_
  have hk := contrEquiv1_symm_val dot_S2048x64_S128x64_S2048x128_1_1_0_0_n_n 64 rfl rfl k
  have el : dot_S2048x64_S128x64_S2048x128_1_1_0_0_n_n.lhsIdx (ix2 r j) ((contrEquiv1 dot_S2048x64_S128x64_S2048x128_1_1_0_0_n_n 64 rfl rfl).symm k) = ix2 r k := funext fun a => Fin.ext (by
    match a with
    | ⟨0, _⟩ => exact matmul_s_lhs _ _
    | ⟨1, _⟩ => exact (dot_S2048x64_S128x64_S2048x128_1_1_0_0_n_n.lhsIdx_val_of_single rfl _ _).trans hk)
  have er : dot_S2048x64_S128x64_S2048x128_1_1_0_0_n_n.rhsIdx (ix2 r j) ((contrEquiv1 dot_S2048x64_S128x64_S2048x128_1_1_0_0_n_n 64 rfl rfl).symm k) = ix2 j k := funext fun a => Fin.ext (by
    match a with
    | ⟨0, _⟩ => exact matmul_s_rhs _ _
    | ⟨1, _⟩ => exact (dot_S2048x64_S128x64_S2048x128_1_1_0_0_n_n.rhsIdx_val_of_single rfl _ _).trans hk)
  rw [el, er]

/-- The left operand's row coordinate is the result's row coordinate. -/
theorem matmul_v_lhs (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
/-- The right operand's free coordinate is the result's column coordinate. -/
theorem matmul_v_rhs (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl
/-- The weighted values' product at (r, j): row r of the weights against column j of the value block, summed over the 128 key rows. -/
theorem matmul_v (x : FVec Ideal S2048x128 .bf16) (y : FVec Ideal S128x512 .bf16) (r : Fin 2048) (j : Fin 512) :
    matmul dot_S2048x128_S128x512_S2048x512_1_0_0_1_n_n none x y (constant (F := Ideal) S2048x512 .f32 0x00000000#32) (ix2 r j)
      = ∑ k : Fin 128, x (ix2 r k) * y (ix2 k j) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 r j) ((contrEquiv1 dot_S2048x128_S128x512_S2048x512_1_0_0_1_n_n 128 rfl rfl).symm k) = ix2 r k := funext fun a => Fin.ext (by
    match a with
    | ⟨0, _⟩ => exact matmul_v_lhs _ _
    | ⟨1, _⟩ => exact (dot_S2048x128_S128x512_S2048x512_1_0_0_1_n_n.lhsIdx_val_of_single rfl _ _).trans hk)
  have er : dot_S2048x128_S128x512_S2048x512_1_0_0_1_n_n.rhsIdx (ix2 r j) ((contrEquiv1 dot_S2048x128_S128x512_S2048x512_1_0_0_1_n_n 128 rfl rfl).symm k) = ix2 k j := funext fun a => Fin.ext (by
    match a with
    | ⟨0, _⟩ => exact (dot_S2048x128_S128x512_S2048x512_1_0_0_1_n_n.rhsIdx_val_of_single rfl _ _).trans hk
    | ⟨1, _⟩ => exact matmul_v_rhs _ _)
  rw [el, er]

end Cert.StepLayout

end
-- ==== Proof.Spec.lean ====
/- Scaled dot-product attention over the reals, as one function of the seven argument arrays.

   With keys K, queries Q and values V of shape [8, 4096, 512], projection weights Wk, Wq of shape [64, 512] and
   biases bk, bq of length 64, and a scale c:
     projK b n j = sum over d of K b n d * Wk j d, plus bk j          (the projected key of row n)
     projQ b n j = sum over d of Q b n d * Wq j d, plus bq j          (the projected query of row n)
     score b q k = (sum over j of projQ b q j * projK b k j) * c
     attn  b q d = (sum over k of exp (score b q k) * V b k d) / (sum over k of exp (score b q k)).
   The last line is the softmax-weighted mean of the value rows written WITHOUT a subtracted maximum: dividing
   numerator and denominator by exp M for any real M gives the usual stabilised form, so the number M that a program
   subtracts never enters the specification. The result array holds attn at every index, as an extended real. -/
import Idealize.ShloMosaic.PureOps.Ideal
import Idealize.ShloMosaic.Lib.ValueIdx

noncomputable section

open scoped BigOperators

namespace Cert.Attn

open Idealize.ShloMosaic Idealize.ShloMosaic.ValueIdx

/-- The shape of the keys, queries, values and of the result. -/
abbrev SA : Shape := ⟨3, ![8, 4096, 512]⟩
/-- The shape of a projection's weights. -/
abbrev SW : Shape := ⟨2, ![64, 512]⟩
/-- The shape of a projection's bias. -/
abbrev SB : Shape := ⟨1, ![64]⟩

variable (K Q V : SA.Idx → ℝ) (Wk : SW.Idx → ℝ) (bk : SB.Idx → ℝ) (Wq : SW.Idx → ℝ) (bq : SB.Idx → ℝ) (c : ℝ)

/-- A row's projection: the row times the transposed weights, plus the bias. -/
def proj (X : SA.Idx → ℝ) (W : SW.Idx → ℝ) (bias : SB.Idx → ℝ) (b : Fin 8) (n : Fin 4096) (j : Fin 64) : ℝ :=
  (∑ d : Fin 512, X (ix3 b n d) * W (ix2 j d)) + bias (ix1 j)

/-- The scaled score of query row q against key row k in batch b. -/
def score (b : Fin 8) (q k : Fin 4096) : ℝ :=
  (∑ j : Fin 64, proj Q Wq bq b q j * proj K Wk bk b k j) * c

/-- The attention output: the exp-score-weighted mean of the value rows. -/
def attn (b : Fin 8) (q : Fin 4096) (d : Fin 512) : ℝ :=
  (∑ k : Fin 4096, Real.exp (score K Q Wk bk Wq bq c b q k) * V (ix3 b k d))
    / (∑ k : Fin 4096, Real.exp (score K Q Wk bk Wq bq c b q k))

/-- The result array: the attention output at every index, as an extended real. -/
def G : SA.Idx → EReal := fun i => ((attn K Q V Wk bk Wq bq c (i 0) (i 1) (i 2) : ℝ) : EReal)

/-- A finite sum of real numbers, read in the extended reals, is the sum of the readings. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

end Cert.Attn

end
-- ==== Proof.Block.lean ====
/- One grid point of the blockwise attention, over the reals.

   A point holds a block of 2048 query rows (already projected: pq, 2048 x 64), one block of 128 key rows and the same
   128 value rows, and per query row r the running shift mu r, normaliser l r and accumulator acc r d of the running
   softmax (LibSoftmax.lean). From them:
     projB xb w bias r j  the projection of row r of a block xb: sum over d of xb r d * w j d, plus bias j
     sB r j               the score of query row r against key row j of the block: sum over m of pq r m * projB kb .. j m
     bmax r               the largest score of row r in the block
     muNew r              the new shift: the larger of mu r and bmax r
     lNew r, accNew r d   the normaliser and accumulator rescaled to the new shift plus the block's terms
     lFirst, accFirst     the same at a row's first block, where nothing has been seen before
     outB r d             the normalised output acc r d * (1 / l r). -/
import proofs.«125804_j75179107549594_2_alg».proof.Proof.Spec

noncomputable section

open scoped BigOperators

namespace Cert.Attn

open Idealize.ShloMosaic Idealize.ShloMosaic.ValueIdx

/-- A block of n rows of keys, queries or values, with its leading unit axis. -/
abbrev SBlk (n : ℕ) : Shape := ⟨3, ![1, n, 512]⟩
/-- The projected queries of a block of 2048 rows. -/
abbrev SPQ : Shape := ⟨2, ![2048, 64]⟩
/-- One number per query row, kept as a column. -/
abbrev SCol : Shape := ⟨2, ![2048, 1]⟩
/-- The accumulator: one row of 512 per query row. -/
abbrev SAcc : Shape := ⟨2, ![2048, 512]⟩

/-- Row r of a block, projected: the row times the transposed weights, plus the bias. -/
def projB {n : ℕ} (xb : (SBlk n).Idx → ℝ) (w : SW.Idx → ℝ) (bias : SB.Idx → ℝ) (r : Fin n) (j : Fin 64) : ℝ :=
  (∑ d : Fin 512, xb (ix3 (0 : Fin 1) r d) * w (ix2 j d)) + bias (ix1 j)

variable (pq : SPQ.Idx → ℝ) (kb : (SBlk 128).Idx → ℝ) (wk : SW.Idx → ℝ) (bkr : SB.Idx → ℝ)

/-- The score of query row r against key row j of the block. -/
def sB (r : Fin 2048) (j : Fin 128) : ℝ := ∑ m : Fin 64, pq (ix2 r m) * projB kb wk bkr j m

/-- The largest score of query row r in the block. -/
def bmax (r : Fin 2048) : ℝ := Finset.univ.sup' Finset.univ_nonempty (fun j : Fin 128 => sB pq kb wk bkr r j)

variable (μ l : SCol.Idx → ℝ) (acc : SAcc.Idx → ℝ) (vb : (SBlk 128).Idx → ℝ)

/-- The new shift of row r. -/
def muNew (r : Fin 2048) : ℝ := max (μ (ix2 r (0 : Fin 1))) (bmax pq kb wk bkr r)

/-- The new normaliser of row r. -/
def lNew (r : Fin 2048) : ℝ :=
  Real.exp (μ (ix2 r (0 : Fin 1)) - muNew pq kb wk bkr μ r) * l (ix2 r (0 : Fin 1))
    + ∑ j : Fin 128, Real.exp (sB pq kb wk bkr r j - muNew pq kb wk bkr μ r)

/-- The new accumulator of row r at column d. -/
def accNew (r : Fin 2048) (d : Fin 512) : ℝ :=
  Real.exp (μ (ix2 r (0 : Fin 1)) - muNew pq kb wk bkr μ r) * acc (ix2 r d)
    + ∑ j : Fin 128, Real.exp (sB pq kb wk bkr r j - muNew pq kb wk bkr μ r) * vb (ix3 (0 : Fin 1) j d)

/-- The normaliser after a row's first block. -/
def lFirst (r : Fin 2048) : ℝ := ∑ j : Fin 128, Real.exp (sB pq kb wk bkr r j - bmax pq kb wk bkr r)

/-- The accumulator after a row's first block. -/
def accFirst (r : Fin 2048) (d : Fin 512) : ℝ :=
  ∑ j : Fin 128, Real.exp (sB pq kb wk bkr r j - bmax pq kb wk bkr r) * vb (ix3 (0 : Fin 1) j d)

/-- The normalised output of row r at column d. -/
def outB (r : Fin 2048) (d : Fin 512) : ℝ := acc (ix2 r d) * (1 / l (ix2 r (0 : Fin 1)))

end Cert.Attn

end
-- ==== Proof.StepIdeal.lean ====
/- The kernel's stored values at real inputs, one grid point at a time.

   Every argument array is the entrywise reading of a real array. Then each value the kernel stores at a grid point
   is the entrywise reading of the corresponding real quantity of the blockwise attention: the projected queries,
   the new shift, normaliser and accumulator (at a row's later blocks and at its first block, where the old shift
   is minus infinity and the old normaliser and accumulator are zero), and the normalised output.

   The middle of the file works with an arbitrary old shift column whose new shift is known to be the reading of a
   real number M r at every row r; the two cases (a real old shift, minus infinity) instantiate M. -/
import proofs.«125804_j75179107549594_2_alg».proof.Proof.StepLayout
import proofs.«125804_j75179107549594_2_alg».proof.Proof.Block

noncomputable section

open scoped BigOperators

namespace Cert.StepIdeal

open Idealize.ShloMosaic Idealize.ShloMosaic.ValueIdx Cert.KernelIdeal Cert.KernelIdeal.Gen Cert.Attn Cert.StepLayout

local notation "c(" x ")" => (fun y => ((x y : ℝ) : EReal))

variable (qb : (SBlk 2048).Idx → ℝ) (kb vb : (SBlk 128).Idx → ℝ) (wq wk : SW.Idx → ℝ) (bqr bkr : SB.Idx → ℝ)
  (pq : SPQ.Idx → ℝ) (μ l : SCol.Idx → ℝ) (acc : SAcc.Idx → ℝ)

/-! ## The projections and the scores -/

/-- The stored query projection at (r, j) is the real projection of row r of the query block. -/
theorem pq_init_apply (r : Fin 2048) (j : Fin 64) :
    k0_pay5 (F := Ideal) c(qb) c(wq) c(bqr) (ix2 r j) = ((projB qb wq bqr r j : ℝ) : EReal) := by
  unfold k0_pay5
  simp only [shapeCast_self, addf_apply, matmul_q, broadcastTo_1b_ab_apply, shapeCast_a_1a_apply, truncf_apply,
    shapeCast_1ab_ab_apply]
  rw [projB, EReal.coe_add, ← Cert.Attn.coe_sum]
  simp only [EReal.coe_mul]

/-- The score block at (r, j) is the real score of query row r against key row j of the block. -/
theorem score_apply (r : Fin 2048) (j : Fin 128) :
    k0_pay10 (F := Ideal) c(kb) c(wk) c(bkr) c(pq) (ix2 r j) = ((sB pq kb wk bkr r j : ℝ) : EReal) := by
  unfold k0_pay10
  simp only [matmul_s, truncf_apply, addf_apply, matmul_k, broadcastTo_1b_ab_apply, shapeCast_a_1a_apply,
    shapeCast_1ab_ab_apply]
  rw [sB, ← Cert.Attn.coe_sum]
  refine Finset.sum_congr rfl fun m _ => ?_
  rw [EReal.coe_mul, projB, EReal.coe_add, ← Cert.Attn.coe_sum]
  simp only [EReal.coe_mul]

/-! ## The constant columns -/

/-- The column of minus infinity. -/
theorem neg_inf_col_apply (y : S2048x1.Idx) : k0_pay6 (F := Ideal) y = (⊥ : EReal) := by
  unfold k0_pay6
  rw [shapeCast_self]
  exact Cert.LibMax.ofBits_neg_inf

/-- The column of zeros. -/
theorem zero_col_apply (y : S2048x1.Idx) : k0_pay7 (F := Ideal) y = (0 : EReal) := by
  unfold k0_pay7
  rw [shapeCast_self]
  exact Ideal.ofBits_zero_f32

/-- The matrix of zeros. -/
theorem zero_mat_apply (y : S2048x512.Idx) : k0_pay8 (F := Ideal) y = (0 : EReal) := by
  unfold k0_pay8
  rw [shapeCast_self]
  exact Ideal.ofBits_zero_f32

/-! ## The new shift -/

/-- The new shift of row r: the larger of the old shift and the block's largest score. -/
theorem mu_apply (v20 : FVec Ideal S2048x1 .f32) (r : Fin 2048) :
    k0_pay11 (F := Ideal) c(kb) c(wk) c(bkr) c(pq) v20 (ix2 r (0 : Fin 1))
      = max (v20 (ix2 r (0 : Fin 1))) ((bmax pq kb wk bkr r : ℝ) : EReal) := by
  unfold k0_pay11
  rw [maximumf_apply, shapeCast_a_a1_apply]
  refine congrArg (max _) ((lane_max _ _ _ _ r).trans ?_)
  rw [bmax, ← coe_sup']
  exact Finset.sup_congr rfl fun k _ => score_apply kb wk bkr pq r k

/-- With a real old shift the new shift is the reading of the real new shift. -/
theorem mu_step_apply (r : Fin 2048) :
    k0_pay11 (F := Ideal) c(kb) c(wk) c(bkr) c(pq) c(μ) (ix2 r (0 : Fin 1)) = ((muNew pq kb wk bkr μ r : ℝ) : EReal) := by
  rw [mu_apply, muNew, coe_max]

/-- With the old shift minus infinity the new shift is the reading of the block's largest score. -/
theorem mu_first_apply (r : Fin 2048) :
    k0_pay11 (F := Ideal) c(kb) c(wk) c(bkr) c(pq) (k0_pay6 (F := Ideal)) (ix2 r (0 : Fin 1))
      = ((bmax pq kb wk bkr r : ℝ) : EReal) := by
  rw [mu_apply, neg_inf_col_apply, max_eq_right bot_le]

/-! ## The weights, their sum, the decay of the old state, and the new normaliser and accumulator

For an arbitrary old shift column whose new shift at row r is the reading of a real number M r. -/

/-- The exponential of an array, read at an index. -/
theorem exp_apply {s : Shape} {φ : FTy} (x : FVec Ideal s φ) (i : s.Idx) :
    Idealize.ShloMosaic.exp x i = Ideal.exp (x i) := rfl

section Shift

variable (v20 : FVec Ideal S2048x1 .f32) (M : Fin 2048 → ℝ)
  (hM : ∀ r, k0_pay11 (F := Ideal) c(kb) c(wk) c(bkr) c(pq) v20 (ix2 r (0 : Fin 1)) = ((M r : ℝ) : EReal))
include hM

/-- The weight of key row j for query row r: the exponential of the score less the new shift. -/
theorem weight_apply (r : Fin 2048) (j : Fin 128) :
    k0_pay13 (F := Ideal) c(kb) c(wk) c(bkr) c(pq) v20 (ix2 r j)
      = ((Real.exp (sB pq kb wk bkr r j - M r) : ℝ) : EReal) := by
  unfold k0_pay13
  rw [exp_apply, subf_apply, broadcastTo_a1_ab_apply, hM, score_apply, ← EReal.coe_sub, Ideal.exp_coe]

/-- The sum of row r's weights over the block. -/
theorem wsum_apply (r : Fin 2048) :
    k0_pay15 (F := Ideal) c(kb) c(wk) c(bkr) c(pq) v20 (ix1 r)
      = ((∑ j : Fin 128, Real.exp (sB pq kb wk bkr r j - M r) : ℝ) : EReal) := by
  unfold k0_pay15
  refine (lane_sum _ _ _ _ _ r).trans ?_
  rw [← Cert.Attn.coe_sum]
  exact Finset.sum_congr rfl fun j _ => weight_apply kb wk bkr pq v20 M hM r j

/-- The decay of row r's old state: the exponential of the old shift less the new one. -/
theorem decay_apply (v24 : FVec Ideal S2048x1 .f32) (r : Fin 2048) :
    k0_pay12 (F := Ideal) c(kb) c(wk) c(bkr) c(pq) v20 v24 (ix2 r (0 : Fin 1))
      = Ideal.exp (v24 (ix2 r (0 : Fin 1)) - ((M r : ℝ) : EReal)) := by
  unfold k0_pay12
  rw [exp_apply, subf_apply, hM]

/-- The new normaliser of row r: the decayed old one plus the sum of the weights. -/
theorem l_apply (v24 v30 : FVec Ideal S2048x1 .f32) (r : Fin 2048) :
    k0_pay1 (F := Ideal) (k0_pay14 (F := Ideal) c(kb) c(wk) c(bkr) c(pq) v20 v24 v30)
        (k0_pay15 (F := Ideal) c(kb) c(wk) c(bkr) c(pq) v20) (ix2 r (0 : Fin 1))
      = Ideal.exp (v24 (ix2 r (0 : Fin 1)) - ((M r : ℝ) : EReal)) * v30 (ix2 r (0 : Fin 1))
        + ((∑ j : Fin 128, Real.exp (sB pq kb wk bkr r j - M r) : ℝ) : EReal) := by
  unfold k0_pay1 k0_pay14
  simp only [shapeCast_self, addf_apply, mulf_apply, shapeCast_a_a1_apply]
  rw [decay_apply kb wk bkr pq v20 M hM, wsum_apply kb wk bkr pq v20 M hM]

/-- The new accumulator of row r at column d: the decayed old one plus the weighted sum of the value rows. -/
theorem acc_apply (v24 : FVec Ideal S2048x1 .f32) (v38 : FVec Ideal S2048x512 .f32) (r : Fin 2048) (d : Fin 512) :
    k0_pay2 (F := Ideal) (k0_pay9 (F := Ideal) c(vb)) (k0_pay12 (F := Ideal) c(kb) c(wk) c(bkr) c(pq) v20 v24)
        (k0_pay13 (F := Ideal) c(kb) c(wk) c(bkr) c(pq) v20) v38 (ix2 r d)
      = Ideal.exp (v24 (ix2 r (0 : Fin 1)) - ((M r : ℝ) : EReal)) * v38 (ix2 r d)
        + ((∑ j : Fin 128, Real.exp (sB pq kb wk bkr r j - M r) * vb (ix3 (0 : Fin 1) j d) : ℝ) : EReal) := by
  unfold k0_pay2
  simp only [shapeCast_self, addf_apply, mulf_apply, broadcastTo_a1_ab_apply, matmul_v, truncf_apply]
  rw [decay_apply kb wk bkr pq v20 M hM, ← Cert.Attn.coe_sum]
  refine congrArg (_ + ·) (Finset.sum_congr rfl fun j _ => ?_)
  rw [weight_apply kb wk bkr pq v20 M hM, EReal.coe_mul]
  refine congrArg (_ * ·) ?_
  unfold k0_pay9
  rw [truncf_apply, shapeCast_1ab_ab_apply]

end Shift

/-! ## The stored values, as arrays -/

/-- The stored query projection. -/
theorem pq_init : k0_pay5 (F := Ideal) c(qb) c(wq) c(bqr) = fun y => ((projB qb wq bqr (y 0) (y 1) : ℝ) : EReal) := by
  funext y
  obtain ⟨r, j, rfl⟩ : ∃ (r : Fin 2048) (j : Fin 64), y = ix2 r j := ⟨y 0, y 1, eq_ix2 y⟩
  exact pq_init_apply qb wq bqr r j

/-- The stored shift, at a row's later blocks. -/
theorem mu_step : k0_pay3 (F := Ideal) (k0_pay11 (F := Ideal) c(kb) c(wk) c(bkr) c(pq) c(μ))
    = fun y => ((muNew pq kb wk bkr μ (y 0) : ℝ) : EReal) := by
  funext y
  obtain ⟨r, u, rfl⟩ : ∃ (r : Fin 2048) (u : Fin 1), y = ix2 r u := ⟨y 0, y 1, eq_ix2 y⟩
  obtain rfl : u = 0 := Subsingleton.elim _ _
  unfold k0_pay3
  rw [shapeCast_self]
  exact mu_step_apply kb wk bkr pq μ r

/-- The stored shift, at a row's first block. -/
theorem mu_first : k0_pay3 (F := Ideal) (k0_pay11 (F := Ideal) c(kb) c(wk) c(bkr) c(pq) (k0_pay6 (F := Ideal)))
    = fun y => ((bmax pq kb wk bkr (y 0) : ℝ) : EReal) := by
  funext y
  obtain ⟨r, u, rfl⟩ : ∃ (r : Fin 2048) (u : Fin 1), y = ix2 r u := ⟨y 0, y 1, eq_ix2 y⟩
  obtain rfl : u = 0 := Subsingleton.elim _ _
  unfold k0_pay3
  rw [shapeCast_self]
  exact mu_first_apply kb wk bkr pq r

/-- The stored normaliser, at a row's later blocks. -/
theorem l_step : k0_pay1 (F := Ideal) (k0_pay14 (F := Ideal) c(kb) c(wk) c(bkr) c(pq) c(μ) c(μ) c(l))
      (k0_pay15 (F := Ideal) c(kb) c(wk) c(bkr) c(pq) c(μ))
    = fun y => ((lNew pq kb wk bkr μ l (y 0) : ℝ) : EReal) := by
  funext y
  obtain ⟨r, u, rfl⟩ : ∃ (r : Fin 2048) (u : Fin 1), y = ix2 r u := ⟨y 0, y 1, eq_ix2 y⟩
  obtain rfl : u = 0 := Subsingleton.elim _ _
  rw [l_apply kb wk bkr pq c(μ) (muNew pq kb wk bkr μ) (mu_step_apply kb wk bkr pq μ)]
  show Ideal.exp (((μ (ix2 r (0 : Fin 1)) : ℝ) : EReal) - _) * ((l (ix2 r (0 : Fin 1)) : ℝ) : EReal) + _ = _
  rw [← EReal.coe_sub, Ideal.exp_coe, ← EReal.coe_mul, ← EReal.coe_add]
  rfl

/-- The stored normaliser, at a row's first block: the old shift is minus infinity, so the decay is zero. -/
theorem l_first : k0_pay1 (F := Ideal)
      (k0_pay14 (F := Ideal) c(kb) c(wk) c(bkr) c(pq) (k0_pay6 (F := Ideal)) (k0_pay6 (F := Ideal)) (k0_pay7 (F := Ideal)))
      (k0_pay15 (F := Ideal) c(kb) c(wk) c(bkr) c(pq) (k0_pay6 (F := Ideal)))
    = fun y => ((lFirst pq kb wk bkr (y 0) : ℝ) : EReal) := by
  funext y
  obtain ⟨r, u, rfl⟩ : ∃ (r : Fin 2048) (u : Fin 1), y = ix2 r u := ⟨y 0, y 1, eq_ix2 y⟩
  obtain rfl : u = 0 := Subsingleton.elim _ _
  rw [l_apply kb wk bkr pq (k0_pay6 (F := Ideal)) (bmax pq kb wk bkr) (mu_first_apply kb wk bkr pq),
    neg_inf_col_apply, EReal.bot_sub, Ideal.exp_bot, zero_mul, zero_add]
  rfl

/-- The stored accumulator, at a row's later blocks. -/
theorem acc_step : k0_pay2 (F := Ideal) (k0_pay9 (F := Ideal) c(vb))
      (k0_pay12 (F := Ideal) c(kb) c(wk) c(bkr) c(pq) c(μ) c(μ)) (k0_pay13 (F := Ideal) c(kb) c(wk) c(bkr) c(pq) c(μ)) c(acc)
    = fun y => ((accNew pq kb wk bkr μ acc vb (y 0) (y 1) : ℝ) : EReal) := by
  funext y
  obtain ⟨r, d, rfl⟩ : ∃ (r : Fin 2048) (d : Fin 512), y = ix2 r d := ⟨y 0, y 1, eq_ix2 y⟩
  rw [acc_apply kb vb wk bkr pq c(μ) (muNew pq kb wk bkr μ) (mu_step_apply kb wk bkr pq μ)]
  show Ideal.exp (((μ (ix2 r (0 : Fin 1)) : ℝ) : EReal) - _) * ((acc (ix2 r d) : ℝ) : EReal) + _ = _
  rw [← EReal.coe_sub, Ideal.exp_coe, ← EReal.coe_mul, ← EReal.coe_add]
  rfl

/-- The stored accumulator, at a row's first block. -/
theorem acc_first : k0_pay2 (F := Ideal) (k0_pay9 (F := Ideal) c(vb))
      (k0_pay12 (F := Ideal) c(kb) c(wk) c(bkr) c(pq) (k0_pay6 (F := Ideal)) (k0_pay6 (F := Ideal)))
      (k0_pay13 (F := Ideal) c(kb) c(wk) c(bkr) c(pq) (k0_pay6 (F := Ideal))) (k0_pay8 (F := Ideal))
    = fun y => ((accFirst pq kb wk bkr vb (y 0) (y 1) : ℝ) : EReal) := by
  funext y
  obtain ⟨r, d, rfl⟩ : ∃ (r : Fin 2048) (d : Fin 512), y = ix2 r d := ⟨y 0, y 1, eq_ix2 y⟩
  rw [acc_apply kb vb wk bkr pq (k0_pay6 (F := Ideal)) (bmax pq kb wk bkr) (mu_first_apply kb wk bkr pq),
    neg_inf_col_apply, EReal.bot_sub, Ideal.exp_bot, zero_mul, zero_add]
  rfl

/-- The word 0x3F800000 denotes the number one. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- The stored output: the accumulator times the reciprocal of the normaliser, where the normaliser is not zero. -/
theorem out_eq (hl : ∀ y, l y ≠ 0) : k0_pay4 (F := Ideal) c(acc) c(l)
    = fun y => ((outB l acc (y 1) (y 2) : ℝ) : EReal) := by
  funext y
  obtain ⟨u, r, d, rfl⟩ : ∃ (u : Fin 1) (r : Fin 2048) (d : Fin 512), y = ix3 u r d := ⟨y 0, y 1, y 2, eq_ix3 y⟩
  unfold k0_pay4
  rw [shapeCast_ab_1ab_apply, mulf_apply, broadcastTo_a1_ab_apply, divf_apply, broadcast_apply]
  show ((acc (ix2 r d) : ℝ) : EReal) * Ideal.div (Ideal.ofBits .f32 0x3F800000#32) ((l (ix2 r (0 : Fin 1)) : ℝ) : EReal) = _
  rw [one_word, Ideal.div_coe (hl _), one_mul, ← EReal.coe_mul]
  rfl

end Cert.StepIdeal

end
-- ==== Proof.Grid.lean ====
/- The grid of the blockwise attention and the rows its blocks hold.

   The 512 grid points are numbered batch-major: point t belongs to batch t / 64, to the query block (t / 32) mod 2 and
   to the key block t mod 32. Query block qi holds the 2048 query rows 2048 * qi + r, key block ki the 128 key (and
   value) rows 128 * ki + j. -/
import proofs.«125804_j75179107549594_2_alg».proof.Proof.Gen.KernelIdeal.Frame
import proofs.«125804_j75179107549594_2_alg».proof.Proof.Block

noncomputable section

namespace Cert.Attn

open Cert.KernelIdeal Cert.KernelIdeal.Gen Idealize.ShloMosaic

/-- The grid has 512 points. -/
theorem N_eq : cfg0.N = 512 := N_0

/-- The batch of point t. -/
def gb (t : Fin cfg0.N) : Fin 8 := ⟨t.val / 64, by have h : t.val < 512 := lt_of_lt_of_eq t.isLt N_eq; omega⟩

/-- The query block of point t. -/
def gq (t : Fin cfg0.N) : Fin 2 := ⟨t.val / 32 % 2, by omega⟩

/-- The key block of point t. -/
def gk (t : Fin cfg0.N) : Fin 32 := ⟨t.val % 32, by omega⟩

/-- Row r of query block qi, as a row of the whole array. -/
def qrow (qi : Fin 2) (r : Fin 2048) : Fin 4096 := ⟨2048 * qi.val + r.val, by omega⟩

/-- Row j of key block ki, as a row of the whole array. -/
def krow (ki : Fin 32) (j : Fin 128) : Fin 4096 := ⟨128 * ki.val + j.val, by omega⟩

end Cert.Attn

end
-- ==== Proof.Finite.lean ====
/- Finiteness of the seven argument arrays, read off the stated precondition, and the scale constant.

   The precondition computes, for each argument array x, the conjunction over all indices of |x i| < +inf (the
   comparison is against the word 0x7F800000, which denotes +inf), and then the conjunction of the seven results.
   In the extended reals |x| is max x (-x), so |x| < +inf excludes x = +inf and also x = -inf (whose negation is
   +inf). An extended real that is neither infinity is the reading of a real number, namely of its real part.
   Hence, when the precondition's result is 1, each argument array is the entrywise reading of a real array. -/
import proofs.«125804_j75179107549594_2_alg».proof.Proof.Spec
import proofs.«125804_j75179107549594_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The scalar shape has exactly one index. -/
instance : Subsingleton (⟨0, ![]⟩ : Shape).Idx := ⟨fun a b => funext fun d => d.elim0⟩

/-- The word 0x7F800000 (sign 0, exponent field all ones, mantissa 0) denotes +inf. -/
theorem inf_word : Ideal.ofBits .f32 0x7F800000#32 = (⊤ : EReal) := by
  simp [Ideal.ofBits, Ideal.ieee]

/-- The word 0x3E000000 (sign 0, exponent field 124, mantissa 0) denotes 2^(124 - 127) = 1/8. -/
theorem scale_word : Ideal.ofBits .f32 0x3E000000#32 = ((1 / 8 : ℝ) : EReal) := by
  simp [Ideal.ofBits, Ideal.ieee, -EReal.coe_mul]; norm_num

/-- If max x (-x) < +inf then x is neither infinity: at x = +inf the maximum is +inf, and at x = -inf the
    negation is +inf, so the maximum is +inf again. -/
theorem ne_top_bot_of_abs_lt_top (x : EReal) (h : Ideal.cmp .olt (max x (-x)) ⊤ = 1#1) : x ≠ ⊤ ∧ x ≠ ⊥ := by
  induction x using EReal.rec with
  | bot => simp [Ideal.cmp] at h
  | coe r => exact ⟨EReal.coe_ne_top r, EReal.coe_ne_bot r⟩
  | top => simp [Ideal.cmp] at h

/-- One conjunct of the precondition, over an arbitrary shape: if the conjunction over all indices of
    |a i| < +inf is 1, then every entry of a is neither infinity. The conjunction being 1 gives the comparison
    bit 1 at every index; the broadcast scalar reads +inf everywhere. -/
theorem finite_of_all {s : Shape} {axes : List (Fin s.rank)} (a : FVec Ideal s .f32)
    (hb : (⟨0, ![]⟩ : Shape).BroadcastsInDim s ![]) (hr : s.ReducesTo axes ⟨0, ![]⟩)
    (hS : 0 < (⟨0, ![]⟩ : Shape).numel)
    (e : Host.reduce IntOp.andi
          (cmpf .olt (Host.absf a) (broadcastInDim s ![] hb (constant (F := Ideal) ⟨0, ![]⟩ .f32 0x7F800000#32)))
          (constantI ⟨0, ![]⟩ 1 1#1) hr hS ix0 = 1#1) (i : s.Idx) : a i ≠ ⊤ ∧ a i ≠ ⊥ := by
  have h1 := Host.reduce_andi_all _ _ hr hS ix0 e i
  have h2 : Ideal.cmp .olt (max (a i) (-(a i))) (Ideal.ofBits .f32 0x7F800000#32) = 1#1 := h1
  rw [inf_word] at h2
  exact ne_top_bot_of_abs_lt_top _ h2

/-- An array of extended reals none of which is an infinity is the entrywise reading of the array of its
    real parts. -/
theorem exists_real {ι : Type} (a : ι → EReal) (h : ∀ i, a i ≠ ⊤ ∧ a i ≠ ⊥) :
    ∃ R : ι → ℝ, a = fun i => ((R i : ℝ) : EReal) :=
  ⟨fun i => (a i).toReal, funext fun i => (EReal.coe_toReal (h i).1 (h i).2).symm⟩

open Cert.Attn in
/-- Under the precondition every argument array is the entrywise reading of a real array. The precondition's
    result is a conjunction of seven bits, nested to the left; each conjunct is one array's "all entries finite". -/
theorem real_args [Cert.Pre_finite_inputs.Facts]
    (a0 a1 a2 : FVec Ideal Cert.Pre_finite_inputs.S8x4096x512 .f32)
    (a3 : FVec Ideal Cert.Pre_finite_inputs.S64x512 .f32) (a4 : FVec Ideal Cert.Pre_finite_inputs.S64 .f32)
    (a5 : FVec Ideal Cert.Pre_finite_inputs.S64x512 .f32) (a6 : FVec Ideal Cert.Pre_finite_inputs.S64 .f32)
    (h : Cert.Pre_finite_inputs.fn (F := Ideal) a0 a1 a2 a3 a4 a5 a6 = fun _ => 1#1) :
    (∃ K : SA.Idx → ℝ, a0 = fun i => ((K i : ℝ) : EReal)) ∧ (∃ Q : SA.Idx → ℝ, a1 = fun i => ((Q i : ℝ) : EReal))
    ∧ (∃ V : SA.Idx → ℝ, a2 = fun i => ((V i : ℝ) : EReal))
    ∧ (∃ Wk : SW.Idx → ℝ, a3 = fun i => ((Wk i : ℝ) : EReal)) ∧ (∃ bk : SB.Idx → ℝ, a4 = fun i => ((bk i : ℝ) : EReal))
    ∧ (∃ Wq : SW.Idx → ℝ, a5 = fun i => ((Wq i : ℝ) : EReal)) ∧ (∃ bq : SB.Idx → ℝ, a6 = fun i => ((bq i : ℝ) : EReal)) := by
  have h' := congrFun h ix0
  dsimp only [Cert.Pre_finite_inputs.fn, Cert.Pre_finite_inputs.fn_part1] at h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨exists_real a0 (finite_of_all a0 _ _ _ e0), exists_real a1 (finite_of_all a1 _ _ _ e1),
    exists_real a2 (finite_of_all a2 _ _ _ e2), exists_real a3 (finite_of_all a3 _ _ _ e3),
    exists_real a4 (finite_of_all a4 _ _ _ e4), exists_real a5 (finite_of_all a5 _ _ _ e5),
    exists_real a6 (finite_of_all a6 _ _ _ e6)⟩

end Cert.Finite

end
-- ==== Proof.Windows.lean ====
/- The windows of the blockwise attention, read at real arguments.

   Each of the seven input windows' blocks at a grid point is a rectangle of one argument array: the query block
   holds the 2048 rows 2048 * qi + r of batch b, a key or value block the 128 rows 128 * ki + j of batch b, and the
   four small operands are whole arrays. The query projection's weights and bias arrive already multiplied by one
   eighth, entry by entry. The result window's block at a point is the same rectangle as the query block's, it is
   written back at the last key block of each (b, qi), and those 16 blocks tile the result array. -/
import proofs.«125804_j75179107549594_2_alg».proof.Proof.Grid
import proofs.«125804_j75179107549594_2_alg».proof.Proof.Finite
import proofs.«125804_j75179107549594_2_alg».proof.Proof.Gen.KernelIdeal.Value
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.Windows

open Cert.KernelIdeal Cert.KernelIdeal.Gen Idealize.ShloMosaic.ValueIdx Cert.Attn

/-! ### The index maps, decided once over the 512 grid points -/

theorem idx0 : ∀ t : Fin cfg0.N, win0_0.index t (0 : Fin 3) = t.val / 64 ∧ win0_0.index t (1 : Fin 3) = t.val / 32 % 2
    ∧ win0_0.index t (2 : Fin 3) = 0 :=
  (by decide +kernel : ∀ t : Fin grid0.N, _)

theorem idx1 : ∀ t : Fin cfg0.N, win0_1.index t (0 : Fin 3) = t.val / 64 ∧ win0_1.index t (1 : Fin 3) = t.val % 32
    ∧ win0_1.index t (2 : Fin 3) = 0 :=
  (by decide +kernel : ∀ t : Fin grid0.N, _)

theorem idx2 : ∀ t : Fin cfg0.N, win0_2.index t (0 : Fin 3) = t.val / 64 ∧ win0_2.index t (1 : Fin 3) = t.val % 32
    ∧ win0_2.index t (2 : Fin 3) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 1) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 1) = 0 :=
  (by decide +kernel : ∀ t : Fin grid0.N, _)

theorem idx7 : ∀ t : Fin cfg0.N, win0_7.index t (0 : Fin 3) = t.val / 64 ∧ win0_7.index t (1 : Fin 3) = t.val / 32 % 2
    ∧ win0_7.index t (2 : Fin 3) = 0 :=
  (by decide +kernel : ∀ t : Fin grid0.N, _)

/-! ### The arguments are real arrays -/

variable (m : (ℓ : Loc nD τ sig) → Buf (Elt Ideal) ℓ) (c : Dev nD)
variable (K Q Vl : SA.Idx → ℝ) (Wk : SW.Idx → ℝ) (bk : SB.Idx → ℝ) (Wq : SW.Idx → ℝ) (bq : SB.Idx → ℝ)

/-- The launch memory holds, in the seven argument buffers, the real arrays K, Q, V, Wk, bk, Wq, bq. -/
structure Args : Prop where
  hK : m ((c : Thread nD τ).loc main_arg0) = fun i => ((K i : ℝ) : EReal)
  hQ : m ((c : Thread nD τ).loc main_arg1) = fun i => ((Q i : ℝ) : EReal)
  hV : m ((c : Thread nD τ).loc main_arg2) = fun i => ((Vl i : ℝ) : EReal)
  hWk : m ((c : Thread nD τ).loc main_arg3) = fun i => ((Wk i : ℝ) : EReal)
  hbk : m ((c : Thread nD τ).loc main_arg4) = fun i => ((bk i : ℝ) : EReal)
  hWq : m ((c : Thread nD τ).loc main_arg5) = fun i => ((Wq i : ℝ) : EReal)
  hbq : m ((c : Thread nD τ).loc main_arg6) = fun i => ((bq i : ℝ) : EReal)

/-! ### The blocks of the three large operands -/

/-- The query block at point t: row r of the block is row 2048 * qi + r of batch b. -/
theorem blk0_apply (A : Args m c K Q Vl Wk bk Wq bq) (t : Fin cfg0.N) (y : S1x2048x512.Idx) :
    (iblk m c 0 t : S1x2048x512.Idx → EReal) y = ((Q (ix3 (gb t) (qrow (gq t) (y 1)) (y 2)) : ℝ) : EReal) := by
  obtain ⟨e0, e1, e2⟩ := idx0 t
  have h0 : (y 0).val < 1 := (y 0).isLt
  unfold iblk
  rw [View.read_apply]
  show Gen.V m c main_arg1 (((cfg0.win 0).blk t).view.emb y) = _
  rw [V_main_arg1, A.hQ]
  refine congrArg (fun i => ((Q i : ℝ) : EReal)) (funext fun a => Fin.ext ?_)
  match a with
  | ⟨0, _⟩ => show win0_0.index t (0 : Fin 3) * 1 + 1 * (y 0).val = t.val / 64; omega
  | ⟨1, _⟩ => show win0_0.index t (1 : Fin 3) * 2048 + 1 * (y 1).val = 2048 * (t.val / 32 % 2) + (y 1).val; omega
  | ⟨2, _⟩ => show win0_0.index t (2 : Fin 3) * 512 + 1 * (y 2).val = (y 2).val; omega

theorem blk0 (A : Args m c K Q Vl Wk bk Wq bq) (t : Fin cfg0.N) :
    (iblk m c 0 t : S1x2048x512.Idx → EReal) = fun y => ((Q (ix3 (gb t) (qrow (gq t) (y 1)) (y 2)) : ℝ) : EReal) :=
  funext fun y => blk0_apply m c K Q Vl Wk bk Wq bq A t y

/-- The key block at point t: row j of the block is row 128 * ki + j of batch b. -/
theorem blk1_apply (A : Args m c K Q Vl Wk bk Wq bq) (t : Fin cfg0.N) (y : S1x128x512.Idx) :
    (iblk m c 1 t : S1x128x512.Idx → EReal) y = ((K (ix3 (gb t) (krow (gk t) (y 1)) (y 2)) : ℝ) : EReal) := by
  obtain ⟨e0, e1, e2⟩ := idx1 t
  have h0 : (y 0).val < 1 := (y 0).isLt
  unfold iblk
  rw [View.read_apply]
  show Gen.V m c main_arg0 (((cfg0.win 1).blk t).view.emb y) = _
  rw [V_main_arg0, A.hK]
  refine congrArg (fun i => ((K i : ℝ) : EReal)) (funext fun a => Fin.ext ?_)
  match a with
  | ⟨0, _⟩ => show win0_1.index t (0 : Fin 3) * 1 + 1 * (y 0).val = t.val / 64; omega
  | ⟨1, _⟩ => show win0_1.index t (1 : Fin 3) * 128 + 1 * (y 1).val = 128 * (t.val % 32) + (y 1).val; omega
  | ⟨2, _⟩ => show win0_1.index t (2 : Fin 3) * 512 + 1 * (y 2).val = (y 2).val; omega

theorem blk1 (A : Args m c K Q Vl Wk bk Wq bq) (t : Fin cfg0.N) :
    (iblk m c 1 t : S1x128x512.Idx → EReal) = fun y => ((K (ix3 (gb t) (krow (gk t) (y 1)) (y 2)) : ℝ) : EReal) :=
  funext fun y => blk1_apply m c K Q Vl Wk bk Wq bq A t y

/-- The value block at point t: row j of the block is row 128 * ki + j of batch b. -/
theorem blk2_apply (A : Args m c K Q Vl Wk bk Wq bq) (t : Fin cfg0.N) (y : S1x128x512.Idx) :
    (iblk m c 2 t : S1x128x512.Idx → EReal) y = ((Vl (ix3 (gb t) (krow (gk t) (y 1)) (y 2)) : ℝ) : EReal) := by
  obtain ⟨e0, e1, e2⟩ := idx2 t
  have h0 : (y 0).val < 1 := (y 0).isLt
  unfold iblk
  rw [View.read_apply]
  show Gen.V m c main_arg2 (((cfg0.win 2).blk t).view.emb y) = _
  rw [V_main_arg2, A.hV]
  refine congrArg (fun i => ((Vl i : ℝ) : EReal)) (funext fun a => Fin.ext ?_)
  match a with
  | ⟨0, _⟩ => show win0_2.index t (0 : Fin 3) * 1 + 1 * (y 0).val = t.val / 64; omega
  | ⟨1, _⟩ => show win0_2.index t (1 : Fin 3) * 128 + 1 * (y 1).val = 128 * (t.val % 32) + (y 1).val; omega
  | ⟨2, _⟩ => show win0_2.index t (2 : Fin 3) * 512 + 1 * (y 2).val = (y 2).val; omega

theorem blk2 (A : Args m c K Q Vl Wk bk Wq bq) (t : Fin cfg0.N) :
    (iblk m c 2 t : S1x128x512.Idx → EReal) = fun y => ((Vl (ix3 (gb t) (krow (gk t) (y 1)) (y 2)) : ℝ) : EReal) :=
  funext fun y => blk2_apply m c K Q Vl Wk bk Wq bq A t y

/-! ### The four small operands, whole -/

/-- Before the grid runs, the query projection's weights are multiplied by one eighth, entry by entry. -/
theorem scaledWq (A : Args m c K Q Vl Wk bk Wq bq) :
    (Gen.V m c main_v1 : S64x512.Idx → EReal) = fun y => ((Wq y * (1 / 8) : ℝ) : EReal) := by
  have e : (Gen.V m c main_v1 : S64x512.Idx → EReal)
      = mulf (m ((c : Thread nD τ).loc main_arg5)) (broadcastInDim S64x512 ![] bcast_S_S64x512 (constant (F := Ideal) S_ .f32 0x3E000000#32)) := by
    dsimp only [Gen.V, Gen.hostOps0]; after_results
  rw [e, A.hWq]
  funext y
  rw [mulf_apply, broadcastInDim_apply _ bcast_S_S64x512 _ y (fun a => a.elim0) (fun a => a.elim0), constant_apply,
    Cert.Finite.scale_word, ← EReal.coe_mul]

/-- … and so is its bias. -/
theorem scaledbq (A : Args m c K Q Vl Wk bk Wq bq) :
    (Gen.V m c main_v3 : S64.Idx → EReal) = fun y => ((bq y * (1 / 8) : ℝ) : EReal) := by
  have e : (Gen.V m c main_v3 : S64.Idx → EReal)
      = mulf (m ((c : Thread nD τ).loc main_arg6)) (broadcastInDim S64 ![] bcast_S_S64 (constant (F := Ideal) S_ .f32 0x3E000000#32)) := by
    dsimp only [Gen.V, Gen.hostOps0]; after_results
  rw [e, A.hbq]
  funext y
  rw [mulf_apply, broadcastInDim_apply _ bcast_S_S64 _ y (fun a => a.elim0) (fun a => a.elim0), constant_apply,
    Cert.Finite.scale_word, ← EReal.coe_mul]

/-- The scaled query weights, whole, at every point. -/
theorem blk3_apply (A : Args m c K Q Vl Wk bk Wq bq) (t : Fin cfg0.N) (y : S64x512.Idx) :
    (iblk m c 3 t : S64x512.Idx → EReal) y = ((Wq y * (1 / 8) : ℝ) : EReal) := by
  obtain ⟨e0, e1⟩ := idx3 t
  unfold iblk
  rw [View.read_apply]
  show Gen.V m c main_v1 (((cfg0.win 3).blk t).view.emb y) = _
  rw [scaledWq m c K Q Vl Wk bk Wq bq A]
  refine congrArg (fun i => ((Wq i * (1 / 8) : ℝ) : EReal)) (funext fun a => Fin.ext ?_)
  match a with
  | ⟨0, _⟩ => show win0_3.index t (0 : Fin 2) * 64 + 1 * (y 0).val = (y 0).val; omega
  | ⟨1, _⟩ => show win0_3.index t (1 : Fin 2) * 512 + 1 * (y 1).val = (y 1).val; omega

theorem blk3 (A : Args m c K Q Vl Wk bk Wq bq) (t : Fin cfg0.N) :
    (iblk m c 3 t : S64x512.Idx → EReal) = fun y => ((Wq y * (1 / 8) : ℝ) : EReal) :=
  funext fun y => blk3_apply m c K Q Vl Wk bk Wq bq A t y

/-- The scaled query bias, whole, at every point. -/
theorem blk4_apply (A : Args m c K Q Vl Wk bk Wq bq) (t : Fin cfg0.N) (y : S64.Idx) :
    (iblk m c 4 t : S64.Idx → EReal) y = ((bq y * (1 / 8) : ℝ) : EReal) := by
  have e0 := idx4 t
  unfold iblk
  rw [View.read_apply]
  show Gen.V m c main_v3 (((cfg0.win 4).blk t).view.emb y) = _
  rw [scaledbq m c K Q Vl Wk bk Wq bq A]
  refine congrArg (fun i => ((bq i * (1 / 8) : ℝ) : EReal)) (funext fun a => Fin.ext ?_)
  match a with
  | ⟨0, _⟩ => show win0_4.index t (0 : Fin 1) * 64 + 1 * (y 0).val = (y 0).val; omega

theorem blk4 (A : Args m c K Q Vl Wk bk Wq bq) (t : Fin cfg0.N) :
    (iblk m c 4 t : S64.Idx → EReal) = fun y => ((bq y * (1 / 8) : ℝ) : EReal) :=
  funext fun y => blk4_apply m c K Q Vl Wk bk Wq bq A t y

/-- The key weights, whole, at every point. -/
theorem blk5_apply (A : Args m c K Q Vl Wk bk Wq bq) (t : Fin cfg0.N) (y : S64x512.Idx) :
    (iblk m c 5 t : S64x512.Idx → EReal) y = ((Wk y : ℝ) : EReal) := by
  obtain ⟨e0, e1⟩ := idx5 t
  unfold iblk
  rw [View.read_apply]
  show Gen.V m c main_arg3 (((cfg0.win 5).blk t).view.emb y) = _
  rw [V_main_arg3, A.hWk]
  refine congrArg (fun i => ((Wk i : ℝ) : EReal)) (funext fun a => Fin.ext ?_)
  match a with
  | ⟨0, _⟩ => show win0_5.index t (0 : Fin 2) * 64 + 1 * (y 0).val = (y 0).val; omega
  | ⟨1, _⟩ => show win0_5.index t (1 : Fin 2) * 512 + 1 * (y 1).val = (y 1).val; omega

theorem blk5 (A : Args m c K Q Vl Wk bk Wq bq) (t : Fin cfg0.N) :
    (iblk m c 5 t : S64x512.Idx → EReal) = fun y => ((Wk y : ℝ) : EReal) :=
  funext fun y => blk5_apply m c K Q Vl Wk bk Wq bq A t y

/-- The key bias, whole, at every point. -/
theorem blk6_apply (A : Args m c K Q Vl Wk bk Wq bq) (t : Fin cfg0.N) (y : S64.Idx) :
    (iblk m c 6 t : S64.Idx → EReal) y = ((bk y : ℝ) : EReal) := by
  have e0 := idx6 t
  unfold iblk
  rw [View.read_apply]
  show Gen.V m c main_arg4 (((cfg0.win 6).blk t).view.emb y) = _
  rw [V_main_arg4, A.hbk]
  refine congrArg (fun i => ((bk i : ℝ) : EReal)) (funext fun a => Fin.ext ?_)
  match a with
  | ⟨0, _⟩ => show win0_6.index t (0 : Fin 1) * 64 + 1 * (y 0).val = (y 0).val; omega

theorem blk6 (A : Args m c K Q Vl Wk bk Wq bq) (t : Fin cfg0.N) :
    (iblk m c 6 t : S64.Idx → EReal) = fun y => ((bk y : ℝ) : EReal) :=
  funext fun y => blk6_apply m c K Q Vl Wk bk Wq bq A t y

/-! ### The result window -/

/-- A block whose entry (r, d) is G at row 2048 * qi + r of batch b is the result window's block of G at the point. -/
theorem out_read (t : Fin cfg0.N) (G : SA.Idx → EReal) (X : S1x2048x512.Idx → EReal)
    (hX : ∀ y, X y = G (ix3 (gb t) (qrow (gq t) (y 1)) (y 2))) :
    (cfg0.win 7).cut (grid0.coords t) X = ((cfg0.win 7).blk t).view.read (Elt Ideal) G := by
  obtain ⟨e0, e1, e2⟩ := idx7 t
  funext y
  rw [View.read_apply]
  show X y = G (((cfg0.win 7).blk t).view.emb y)
  rw [hX]
  have h0 : (y 0).val < 1 := (y 0).isLt
  refine congrArg G (funext fun a => Fin.ext ?_)
  match a with
  | ⟨0, _⟩ => show t.val / 64 = win0_7.index t (0 : Fin 3) * 1 + 1 * (y 0).val; omega
  | ⟨1, _⟩ => show 2048 * (t.val / 32 % 2) + (y 1).val = win0_7.index t (1 : Fin 3) * 2048 + 1 * (y 1).val; omega
  | ⟨2, _⟩ => show (y 2).val = win0_7.index t (2 : Fin 3) * 512 + 1 * (y 2).val; omega

/-- An index of the result array is in point t's block iff each coordinate is in the block's range on its axis. -/
theorem mem_blk7 (t : Fin cfg0.N) (i : S8x4096x512.Idx) :
    i ∈ ((cfg0.win 7).blk t).view.set ↔ ∀ a : Fin 3, win0_7.index t a * S1x2048x512.size a ≤ (i a).val
      ∧ (i a).val < win0_7.index t a * S1x2048x512.size a + S1x2048x512.size a := by
  show i ∈ ((View.whole main_v4).slice (win0_7.rect t)).set ↔ _
  rw [View.set_slice_whole, Rect.mem_set_unit]
  exact Iff.rfl

/-- Every index (b, q, d) of the result array is in the block written back at the last key block of (b, q / 2048). -/
theorem cover7 : ∀ i : S8x4096x512.Idx, ∃ t : Fin cfg0.N, (cfg0.win 7).flush t = true ∧ i ∈ ((cfg0.win 7).blk t).view.set := by
  intro i
  have hi0 : (i 0).val < 8 := (i 0).isLt
  have hi1 : (i 1).val < 4096 := (i 1).isLt
  have hi2 : (i 2).val < 512 := (i 2).isLt
  obtain ⟨t, tv⟩ : ∃ t : Fin cfg0.N, t.val = 64 * (i 0).val + 32 * ((i 1).val / 2048) + 31 :=
    ⟨⟨64 * (i 0).val + 32 * ((i 1).val / 2048) + 31, by rw [N_eq]; omega⟩, rfl⟩
  obtain ⟨e0, e1, e2⟩ := idx7 t
  refine ⟨t, (flush0_7 t).mpr (by omega), ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 512 ≤ (i 2).val ∧ (i 2).val < win0_7.index t (2 : Fin 3) * 512 + 512; omega

/-- So if every written-back block is the block of G, the result array ends holding G. -/
theorem final_of (G : SA.Idx → EReal)
    (h : ∀ t : Fin cfg0.N, (cfg0.win 7).flush t = true →
      (dats m 0 c).flushed 7 t = ((cfg0.win 7).blk t).view.read (Elt Ideal) G) :
    (dats m 0 c).arrAt 7 cfg0.N = G :=
  (dats m 0 c).arrAt_eq_of_cover 7 G h cover7

end Cert.Windows

end
-- ==== Proof.LibSoftmax.lean ====
/- The running softmax over the reals.

   A program that walks a row of scores block by block keeps three numbers per row: a shift mu (any real at all: the
   running maximum in practice, but nothing below uses that), a normaliser l and a weighted accumulator acc. What it
   maintains is that l * exp mu is the sum of exp (score) over the scores seen so far, and acc * exp mu the sum of
   exp (score) * value: the UNNORMALISED sums, which do not depend on the shift. Moving the shift from mu to mu'
   multiplies l and acc by exp (mu - mu'), and a new block adds its own terms shifted by mu'. At the end acc / l is the
   quotient of the two unnormalised sums. -/
import Mathlib.Analysis.SpecialFunctions.Exp
import Mathlib.Algebra.BigOperators.Intervals
import Mathlib.Algebra.BigOperators.Fin
import Mathlib.Tactic

open scoped BigOperators

namespace Cert.Attn

/-- One step, for the normaliser: rescale by exp (mu - mu') and add the new block's terms shifted by mu'. -/
theorem step_norm {ι : Type} (s : Finset ι) (f : ι → ℝ) (μ μ' l S : ℝ) (h : l * Real.exp μ = S) :
    (Real.exp (μ - μ') * l + ∑ j ∈ s, Real.exp (f j - μ')) * Real.exp μ' = S + ∑ j ∈ s, Real.exp (f j) := by
  rw [add_mul, Finset.sum_mul, ← h]
  congr 1
  · rw [mul_right_comm, ← Real.exp_add, sub_add_cancel, mul_comm]
  · exact Finset.sum_congr rfl fun j _ => by rw [← Real.exp_add, sub_add_cancel]

/-- One step, for the weighted accumulator. -/
theorem step_acc {ι : Type} (s : Finset ι) (f v : ι → ℝ) (μ μ' a A : ℝ) (h : a * Real.exp μ = A) :
    (Real.exp (μ - μ') * a + ∑ j ∈ s, Real.exp (f j - μ') * v j) * Real.exp μ' = A + ∑ j ∈ s, Real.exp (f j) * v j := by
  rw [add_mul, Finset.sum_mul, ← h]
  congr 1
  · rw [mul_right_comm, ← Real.exp_add, sub_add_cancel, mul_comm]
  · exact Finset.sum_congr rfl fun j _ => by rw [mul_right_comm, ← Real.exp_add, sub_add_cancel]

/-- The first block, for the normaliser: nothing seen before. -/
theorem first_norm {ι : Type} (s : Finset ι) (f : ι → ℝ) (μ' : ℝ) :
    (∑ j ∈ s, Real.exp (f j - μ')) * Real.exp μ' = ∑ j ∈ s, Real.exp (f j) := by
  rw [Finset.sum_mul]
  exact Finset.sum_congr rfl fun j _ => by rw [← Real.exp_add, sub_add_cancel]

/-- The first block, for the weighted accumulator. -/
theorem first_acc {ι : Type} (s : Finset ι) (f v : ι → ℝ) (μ' : ℝ) :
    (∑ j ∈ s, Real.exp (f j - μ') * v j) * Real.exp μ' = ∑ j ∈ s, Real.exp (f j) * v j := by
  rw [Finset.sum_mul]
  exact Finset.sum_congr rfl fun j _ => by rw [mul_right_comm, ← Real.exp_add, sub_add_cancel]

/-- At the end the shift cancels: acc times the reciprocal of l is the quotient of the unnormalised sums. -/
theorem quotient_of_scaled (a l e A S : ℝ) (he : e ≠ 0) (hA : a * e = A) (hS : l * e = S) : a * (1 / l) = A / S := by
  rw [← hA, ← hS, mul_div_mul_right _ _ he, mul_one_div]

/-- A sum over the first 128 * (n + 1) naturals is the sum over the first 128 * n and then over one block of 128. -/
theorem sum_range_block (g : ℕ → ℝ) (n : ℕ) :
    ∑ k ∈ Finset.range (128 * (n + 1)), g k = ∑ k ∈ Finset.range (128 * n), g k + ∑ j : Fin 128, g (128 * n + j.val) := by
  rw [show 128 * (n + 1) = 128 * n + 128 by ring, Finset.sum_range_add, Fin.sum_univ_eq_sum_range (fun x => g (128 * n + x)) 128]

/-- The first block alone. -/
theorem sum_range_first (g : ℕ → ℝ) :
    ∑ k ∈ Finset.range (128 * (0 + 1)), g k = ∑ j : Fin 128, g (128 * 0 + j.val) := by
  rw [sum_range_block, Nat.mul_zero, Finset.range_zero, Finset.sum_empty, zero_add]

/-- The weights of the softmax with a shift M are the unshifted exponentials over their sum: the weighted mean of v
    computed with them is the quotient of the two unnormalised sums. -/
theorem shifted_mean {ι : Type} (s : Finset ι) (f v : ι → ℝ) (M : ℝ) :
    ∑ k ∈ s, Real.exp (f k - M) / (∑ j ∈ s, Real.exp (f j - M)) * v k
      = (∑ k ∈ s, Real.exp (f k) * v k) / (∑ k ∈ s, Real.exp (f k)) := by
  have hM : Real.exp M ≠ 0 := (Real.exp_pos M).ne'
  have h1 : ∑ j ∈ s, Real.exp (f j - M) = (∑ j ∈ s, Real.exp (f j)) / Real.exp M := by
    rw [Finset.sum_div]; exact Finset.sum_congr rfl fun j _ => Real.exp_sub _ _
  rw [h1]
  conv_rhs => rw [Finset.sum_div]
  apply Finset.sum_congr rfl
  intro k _
  rw [Real.exp_sub, div_div_div_cancel_right₀ hM, div_mul_eq_mul_div]

end Cert.Attn
-- ==== Proof.Rows.lean ====
/- Sums over the 4096 key rows, taken 128 rows at a time.

   A function g of a key row is extended by zero to all naturals (ext g), so that the sum over the rows seen after n key
   blocks is a sum over the first 128 * n naturals: it grows by one block per step (LibSoftmax.lean's sum_range_block), the
   entry 128 * ki + j of the extension is g at row j of key block ki, and after all 32 blocks the sum is the sum over
   every row. Also: the projected-query form the kernel uses, with the scale folded into the query weights and bias,
   gives the same score as scaling the product afterwards. -/
import proofs.«125804_j75179107549594_2_alg».proof.Proof.Grid
import proofs.«125804_j75179107549594_2_alg».proof.Proof.LibSoftmax

noncomputable section

open scoped BigOperators

namespace Cert.Attn

open Idealize.ShloMosaic Idealize.ShloMosaic.ValueIdx

/-- A function of a key row, extended by zero to every natural number. -/
def ext (g : Fin 4096 → ℝ) (k : ℕ) : ℝ := if h : k < 4096 then g ⟨k, h⟩ else 0

/-- Entry 128 * ki + j of the extension is the function at row j of key block ki. -/
theorem ext_krow (g : Fin 4096 → ℝ) (ki : Fin 32) (j : Fin 128) : ext g (128 * ki.val + j.val) = g (krow ki j) := by
  unfold ext krow
  rw [dif_pos (by omega)]

/-- Over the first 4096 naturals the extension sums to the sum over every key row. -/
theorem sum_ext (g : Fin 4096 → ℝ) : ∑ k ∈ Finset.range 4096, ext g k = ∑ k : Fin 4096, g k := by
  rw [← Fin.sum_univ_eq_sum_range (ext g) 4096]
  exact Finset.sum_congr rfl fun k _ => by unfold ext; rw [dif_pos k.isLt]

/-- Folding the scale c into the query projection's weights and bias scales the score: the kernel's score, with the
    scaled projection on the left, is the specification's. -/
theorem score_folded (K Q : SA.Idx → ℝ) (Wk : SW.Idx → ℝ) (bk : SB.Idx → ℝ) (Wq : SW.Idx → ℝ) (bq : SB.Idx → ℝ) (c : ℝ)
    (b : Fin 8) (q k : Fin 4096) :
    ∑ j : Fin 64, ((∑ d : Fin 512, Q (ix3 b q d) * (Wq (ix2 j d) * c)) + bq (ix1 j) * c) * proj K Wk bk b k j
      = score K Q Wk bk Wq bq c b q k := by
  unfold score proj
  rw [Finset.sum_mul]
  refine Finset.sum_congr rfl fun j _ => ?_
  have h : ∑ d : Fin 512, Q (ix3 b q d) * (Wq (ix2 j d) * c) = (∑ d : Fin 512, Q (ix3 b q d) * Wq (ix2 j d)) * c := by
    rw [Finset.sum_mul]; exact Finset.sum_congr rfl fun d _ => by ring
  rw [h]; ring

end Cert.Attn

end
-- ==== Proof.Inv.lean ====
/- The running softmax of the attention body, point by point.

   After grid point t (batch b, query block qi, key block ki) the body's scratch holds, for every query row r of the
   block: the projected and scaled query row; a shift mu r; a normaliser l r and an accumulator row acc r with
     l r * exp (mu r)     = the sum of exp (score) over the key rows of blocks 0 .. ki,
     acc r d * exp (mu r) = the sum of exp (score) * value over the same rows,
   where score is the specification's score of row 2048 * qi + r of batch b. This is shown by induction on the point:
   a row's first key block starts the sums, every later block extends them by one block (LibSoftmax.lean), the blocks the
   body loads being the rows the grid assigns to the point (Windows.lean) and its stored values the real quantities of
   Block.lean (StepIdeal.lean). At a row's last key block the sums run over all 4096 key rows and the output block is
   their quotient: the specification. -/
import proofs.«125804_j75179107549594_2_alg».proof.Proof.Steps
import proofs.«125804_j75179107549594_2_alg».proof.Proof.StepIdeal
import proofs.«125804_j75179107549594_2_alg».proof.Proof.Windows
import proofs.«125804_j75179107549594_2_alg».proof.Proof.Rows

noncomputable section

open scoped BigOperators

namespace Cert.Inv

open Idealize.ShloMosaic Idealize.ShloMosaic.ValueIdx Cert.KernelIdeal Cert.KernelIdeal.Gen Cert.Attn Cert.Steps

local notation "c(" x ")" => (fun y => ((x y : ℝ) : EReal))

variable (K Q Vl : SA.Idx → ℝ) (Wk : SW.Idx → ℝ) (bk : SB.Idx → ℝ) (Wq : SW.Idx → ℝ) (bq : SB.Idx → ℝ)

/-! ## The real blocks of a point -/

/-- The query rows of point t. -/
def qB (t : Fin cfg0.N) : (SBlk 2048).Idx → ℝ := fun y => Q (ix3 (gb t) (qrow (gq t) (y 1)) (y 2))
/-- The key rows of point t. -/
def kB (t : Fin cfg0.N) : (SBlk 128).Idx → ℝ := fun y => K (ix3 (gb t) (krow (gk t) (y 1)) (y 2))
/-- The value rows of point t. -/
def vB (t : Fin cfg0.N) : (SBlk 128).Idx → ℝ := fun y => Vl (ix3 (gb t) (krow (gk t) (y 1)) (y 2))
/-- The query weights with the scale folded in. -/
def wqS : SW.Idx → ℝ := fun y => Wq y * (1 / 8)
/-- The query bias with the scale folded in. -/
def bqS : SB.Idx → ℝ := fun y => bq y * (1 / 8)
/-- The projected, scaled query rows of point t. -/
def pqT (t : Fin cfg0.N) : SPQ.Idx → ℝ := fun y => projB (qB Q t) (wqS Wq) (bqS bq) (y 0) (y 1)

/-- exp of the score of query row r of point t against key row k. -/
def es (t : Fin cfg0.N) (r : Fin 2048) : Fin 4096 → ℝ :=
  fun k => Real.exp (score K Q Wk bk Wq bq (1 / 8) (gb t) (qrow (gq t) r) k)
/-- The same times the value of row k at column d. -/
def ev (t : Fin cfg0.N) (r : Fin 2048) (d : Fin 512) : Fin 4096 → ℝ :=
  fun k => es K Q Wk bk Wq bq t r k * Vl (ix3 (gb t) k d)

/-- The block score of point t is the specification's score of the rows the grid assigns to it. -/
theorem sB_eq (t : Fin cfg0.N) (r : Fin 2048) (j : Fin 128) :
    sB (pqT Q Wq bq t) (kB K t) Wk bk r j = score K Q Wk bk Wq bq (1 / 8) (gb t) (qrow (gq t) r) (krow (gk t) j) :=
  score_folded K Q Wk bk Wq bq (1 / 8) (gb t) (qrow (gq t) r) (krow (gk t) j)

/-- exp of a block score is the entry of the extended exp-score row at the block's position. -/
theorem exp_sB (t : Fin cfg0.N) (r : Fin 2048) (j : Fin 128) :
    Real.exp (sB (pqT Q Wq bq t) (kB K t) Wk bk r j) = ext (es K Q Wk bk Wq bq t r) (128 * (gk t).val + j.val) := by
  rw [ext_krow, sB_eq]; rfl

/-- The same with the value. -/
theorem exp_sB_v (t : Fin cfg0.N) (r : Fin 2048) (d : Fin 512) (j : Fin 128) :
    Real.exp (sB (pqT Q Wq bq t) (kB K t) Wk bk r j) * vB Vl t (ix3 (0 : Fin 1) j d)
      = ext (ev K Q Vl Wk bk Wq bq t r d) (128 * (gk t).val + j.val) := by
  rw [ext_krow, sB_eq]; rfl

/-! ## The invariant -/

/-- The scratch part of a state: projected queries, shift, normaliser, accumulator. -/
abbrev St := Vec Ideal S2048x64 .f32 × Vec Ideal S2048x1 .f32 × Vec Ideal S2048x1 .f32 × Vec Ideal S2048x512 .f32

/-- What the scratch holds after point t. -/
def Good (t : Fin cfg0.N) (s : St) : Prop :=
  s.1 = c(pqT Q Wq bq t) ∧ ∃ (μ l : SCol.Idx → ℝ) (acc : SAcc.Idx → ℝ),
    s.2.1 = c(μ) ∧ s.2.2.1 = c(l) ∧ s.2.2.2 = c(acc)
    ∧ (∀ r : Fin 2048, l (ix2 r (0 : Fin 1)) * Real.exp (μ (ix2 r (0 : Fin 1)))
        = ∑ k ∈ Finset.range (128 * ((gk t).val + 1)), ext (es K Q Wk bk Wq bq t r) k)
    ∧ (∀ (r : Fin 2048) (d : Fin 512), acc (ix2 r d) * Real.exp (μ (ix2 r (0 : Fin 1)))
        = ∑ k ∈ Finset.range (128 * ((gk t).val + 1)), ext (ev K Q Vl Wk bk Wq bq t r d) k)

/-- A row's first key block starts the sums. -/
theorem good_first (t : Fin cfg0.N) (h0 : (gk t).val = 0) (s : St)
    (h1 : s.1 = k0_pay5 (F := Ideal) c(qB Q t) c(wqS Wq) c(bqS bq))
    (h2 : s.2.1 = k0_pay3 (F := Ideal) (k0_pay11 (F := Ideal) c(kB K t) c(Wk) c(bk) (k0_pay5 (F := Ideal) c(qB Q t) c(wqS Wq) c(bqS bq)) (k0_pay6 (F := Ideal))))
    (h3 : s.2.2.1 = k0_pay1 (F := Ideal) (k0_pay14 (F := Ideal) c(kB K t) c(Wk) c(bk) (k0_pay5 (F := Ideal) c(qB Q t) c(wqS Wq) c(bqS bq)) (k0_pay6 (F := Ideal)) (k0_pay6 (F := Ideal)) (k0_pay7 (F := Ideal)))
        (k0_pay15 (F := Ideal) c(kB K t) c(Wk) c(bk) (k0_pay5 (F := Ideal) c(qB Q t) c(wqS Wq) c(bqS bq)) (k0_pay6 (F := Ideal))))
    (h4 : s.2.2.2 = k0_pay2 (F := Ideal) (k0_pay9 (F := Ideal) c(vB Vl t))
        (k0_pay12 (F := Ideal) c(kB K t) c(Wk) c(bk) (k0_pay5 (F := Ideal) c(qB Q t) c(wqS Wq) c(bqS bq)) (k0_pay6 (F := Ideal)) (k0_pay6 (F := Ideal)))
        (k0_pay13 (F := Ideal) c(kB K t) c(Wk) c(bk) (k0_pay5 (F := Ideal) c(qB Q t) c(wqS Wq) c(bqS bq)) (k0_pay6 (F := Ideal))) (k0_pay8 (F := Ideal))) :
    Good K Q Vl Wk bk Wq bq t s := by
  have e0 : k0_pay5 (F := Ideal) c(qB Q t) c(wqS Wq) c(bqS bq) = c(pqT Q Wq bq t) := Cert.StepIdeal.pq_init (qB Q t) (wqS Wq) (bqS bq)
  have e1 : s.1 = c(pqT Q Wq bq t) := h1.trans e0
  rw [e0] at h2 h3 h4
  refine ⟨e1, fun y => bmax (pqT Q Wq bq t) (kB K t) Wk bk (y 0), fun y => lFirst (pqT Q Wq bq t) (kB K t) Wk bk (y 0),
    fun y => accFirst (pqT Q Wq bq t) (kB K t) Wk bk (vB Vl t) (y 0) (y 1),
    h2.trans (Cert.StepIdeal.mu_first (kB K t) Wk bk (pqT Q Wq bq t)),
    h3.trans (Cert.StepIdeal.l_first (kB K t) Wk bk (pqT Q Wq bq t)),
    h4.trans (Cert.StepIdeal.acc_first (kB K t) (vB Vl t) Wk bk (pqT Q Wq bq t)), fun r => ?_, fun r d => ?_⟩
  · show lFirst (pqT Q Wq bq t) (kB K t) Wk bk r * Real.exp (bmax (pqT Q Wq bq t) (kB K t) Wk bk r) = _
    unfold lFirst
    rw [first_norm, h0, sum_range_first]
    exact Finset.sum_congr rfl fun j _ => by rw [exp_sB, h0]
  · show accFirst (pqT Q Wq bq t) (kB K t) Wk bk (vB Vl t) r d * Real.exp (bmax (pqT Q Wq bq t) (kB K t) Wk bk r) = _
    unfold accFirst
    rw [first_acc, h0, sum_range_first]
    exact Finset.sum_congr rfl fun j _ => by rw [exp_sB_v, h0]

/-- A later key block extends the sums by one block. -/
theorem good_step (t tp : Fin cfg0.N) (hb : gb tp = gb t) (hq : gq tp = gq t) (hk : (gk tp).val + 1 = (gk t).val)
    (sp : St) (hp : Good K Q Vl Wk bk Wq bq tp sp) (s : St)
    (h1 : s.1 = sp.1)
    (h2 : s.2.1 = k0_pay3 (F := Ideal) (k0_pay11 (F := Ideal) c(kB K t) c(Wk) c(bk) sp.1 sp.2.1))
    (h3 : s.2.2.1 = k0_pay1 (F := Ideal) (k0_pay14 (F := Ideal) c(kB K t) c(Wk) c(bk) sp.1 sp.2.1 sp.2.1 sp.2.2.1)
        (k0_pay15 (F := Ideal) c(kB K t) c(Wk) c(bk) sp.1 sp.2.1))
    (h4 : s.2.2.2 = k0_pay2 (F := Ideal) (k0_pay9 (F := Ideal) c(vB Vl t))
        (k0_pay12 (F := Ideal) c(kB K t) c(Wk) c(bk) sp.1 sp.2.1 sp.2.1)
        (k0_pay13 (F := Ideal) c(kB K t) c(Wk) c(bk) sp.1 sp.2.1) sp.2.2.2) :
    Good K Q Vl Wk bk Wq bq t s := by
  obtain ⟨p1, μ, l, acc, p2, p3, p4, pl, pa⟩ := hp
  have ept : pqT Q Wq bq tp = pqT Q Wq bq t := by unfold pqT qB; rw [hb, hq]
  have ees : ∀ r, es K Q Wk bk Wq bq tp r = es K Q Wk bk Wq bq t r := fun r => by unfold es; rw [hb, hq]
  have eev : ∀ r d, ev K Q Vl Wk bk Wq bq tp r d = ev K Q Vl Wk bk Wq bq t r d := fun r d => by unfold ev es; rw [hb, hq]
  rw [ept] at p1
  rw [p1, p2] at h2
  rw [p1, p2, p3] at h3
  rw [p1, p2, p4] at h4
  refine ⟨h1.trans p1, fun y => muNew (pqT Q Wq bq t) (kB K t) Wk bk μ (y 0), fun y => lNew (pqT Q Wq bq t) (kB K t) Wk bk μ l (y 0),
    fun y => accNew (pqT Q Wq bq t) (kB K t) Wk bk μ acc (vB Vl t) (y 0) (y 1),
    h2.trans (Cert.StepIdeal.mu_step (kB K t) Wk bk (pqT Q Wq bq t) μ),
    h3.trans (Cert.StepIdeal.l_step (kB K t) Wk bk (pqT Q Wq bq t) μ l),
    h4.trans (Cert.StepIdeal.acc_step (kB K t) (vB Vl t) Wk bk (pqT Q Wq bq t) μ acc), fun r => ?_, fun r d => ?_⟩
  · show lNew (pqT Q Wq bq t) (kB K t) Wk bk μ l r * Real.exp (muNew (pqT Q Wq bq t) (kB K t) Wk bk μ r) = _
    unfold lNew
    rw [step_norm _ _ _ _ _ _ (pl r), ees r, hk, sum_range_block]
    congr 1
    exact Finset.sum_congr rfl fun j _ => exp_sB K Q Wk bk Wq bq t r j
  · show accNew (pqT Q Wq bq t) (kB K t) Wk bk μ acc (vB Vl t) r d * Real.exp (muNew (pqT Q Wq bq t) (kB K t) Wk bk μ r) = _
    unfold accNew
    rw [step_acc _ _ _ _ _ _ _ (pa r d), eev r d, hk, sum_range_block]
    congr 1
    exact Finset.sum_congr rfl fun j _ => exp_sB_v K Q Vl Wk bk Wq bq t r d j

end Cert.Inv

end
-- ==== Proof.KernelValue.lean ====
/- The idealized kernel's result array is the specification.

   By induction on the grid point the scratch after every point satisfies the running-softmax invariant (Inv.lean): a
   point whose key block is the first starts the sums from the blocks it loads, every other point extends what the
   point before left, which belongs to the same batch and query block. At a row's last key block the sums run over
   all 4096 key rows, the normaliser is positive, and the output block the body stores is the quotient of the two sums:
   the specification at the rows of the block. Those blocks are exactly what is written back, and they cover the result
   array (Windows.lean). -/
import proofs.«125804_j75179107549594_2_alg».proof.Proof.Inv

noncomputable section

open scoped BigOperators

namespace Cert.KernelValue

open Idealize.ShloMosaic Idealize.ShloMosaic.ValueIdx Idealize.ShloMosaic.TcCoe Idealize.SL.Sem
open Cert.KernelIdeal Cert.KernelIdeal.Gen Cert.Attn Cert.Steps Cert.Inv Cert.Windows

variable (m : (ℓ : Loc nD τ sig) → Buf (Elt Ideal) ℓ) (c : Dev nD)
variable (K Q Vl : SA.Idx → ℝ) (Wk : SW.Idx → ℝ) (bk : SB.Idx → ℝ) (Wq : SW.Idx → ℝ) (bq : SB.Idx → ℝ)

/-- The scratch after every point satisfies the invariant. -/
theorem good_all (A : Args m c K Q Vl Wk bk Wq bq) :
    ∀ (n : ℕ) (h : n < cfg0.N), Good K Q Vl Wk bk Wq bq ⟨n, h⟩ (outsAt0 m c n h).2 := by
  intro n
  induction n with
  | zero =>
    intro h
    obtain ⟨e1, e2, e3, e4⟩ := state_first m c ⟨0, h⟩ (Nat.zero_mod _) (by show ¬(0 : ℕ) % 32 = 31; omega)
    rw [blk0 m c K Q Vl Wk bk Wq bq A, blk3 m c K Q Vl Wk bk Wq bq A, blk4 m c K Q Vl Wk bk Wq bq A] at e1 e2 e3 e4
    rw [blk1 m c K Q Vl Wk bk Wq bq A, blk5 m c K Q Vl Wk bk Wq bq A, blk6 m c K Q Vl Wk bk Wq bq A] at e2 e3 e4
    rw [blk2 m c K Q Vl Wk bk Wq bq A] at e4
    exact good_first K Q Vl Wk bk Wq bq ⟨0, h⟩ rfl _ e1 e2 e3 e4
  | succ n ih =>
    intro h
    have hN : n + 1 < 512 := lt_of_lt_of_eq h N_eq
    by_cases h0 : (n + 1) % 32 = 0
    · have h1 : ¬(n + 1) % 32 = 31 := by omega
      obtain ⟨e1, e2, e3, e4⟩ := state_first m c ⟨n + 1, h⟩ h0 h1
      rw [blk0 m c K Q Vl Wk bk Wq bq A, blk3 m c K Q Vl Wk bk Wq bq A, blk4 m c K Q Vl Wk bk Wq bq A] at e1 e2 e3 e4
      rw [blk1 m c K Q Vl Wk bk Wq bq A, blk5 m c K Q Vl Wk bk Wq bq A, blk6 m c K Q Vl Wk bk Wq bq A] at e2 e3 e4
      rw [blk2 m c K Q Vl Wk bk Wq bq A] at e4
      exact good_first K Q Vl Wk bk Wq bq ⟨n + 1, h⟩ h0 _ e1 e2 e3 e4
    · have hn : n < cfg0.N := Nat.lt_of_succ_lt h
      have hb : gb ⟨n, hn⟩ = gb ⟨n + 1, h⟩ := Fin.ext (by show n / 64 = (n + 1) / 64; omega)
      have hq : gq ⟨n, hn⟩ = gq ⟨n + 1, h⟩ := Fin.ext (by show n / 32 % 2 = (n + 1) / 32 % 2; omega)
      have hk : (gk ⟨n, hn⟩).val + 1 = (gk ⟨n + 1, h⟩).val := by show n % 32 + 1 = (n + 1) % 32; omega
      by_cases h1 : (n + 1) % 32 = 31
      · obtain ⟨e1, e2, e3, e4, _⟩ := state_last m c ⟨n + 1, h⟩ h0 h1
        rw [blk1 m c K Q Vl Wk bk Wq bq A, blk5 m c K Q Vl Wk bk Wq bq A, blk6 m c K Q Vl Wk bk Wq bq A] at e2 e3 e4
        rw [blk2 m c K Q Vl Wk bk Wq bq A] at e4
        exact good_step K Q Vl Wk bk Wq bq ⟨n + 1, h⟩ ⟨n, hn⟩ hb hq hk _ (ih hn) _ e1 e2 e3 e4
      · obtain ⟨e1, e2, e3, e4⟩ := state_mid m c ⟨n + 1, h⟩ h0 h1
        rw [blk1 m c K Q Vl Wk bk Wq bq A, blk5 m c K Q Vl Wk bk Wq bq A, blk6 m c K Q Vl Wk bk Wq bq A] at e2 e3 e4
        rw [blk2 m c K Q Vl Wk bk Wq bq A] at e4
        exact good_step K Q Vl Wk bk Wq bq ⟨n + 1, h⟩ ⟨n, hn⟩ hb hq hk _ (ih hn) _ e1 e2 e3 e4

/-- At a row's last key block the stored output block is the specification at the block's rows. -/
theorem out_block (A : Args m c K Q Vl Wk bk Wq bq) (t : Fin cfg0.N) (h1 : t.val % 32 = 31) (y : S1x2048x512.Idx) :
    (outsAt0 m c t.val t.isLt).1 y = G K Q Vl Wk bk Wq bq (1 / 8) (ix3 (gb t) (qrow (gq t) (y 1)) (y 2)) := by
  have h0 : ¬t.val % 32 = 0 := by omega
  obtain ⟨_, _, e3, e4, e5⟩ := state_last m c t h0 h1
  rw [← e4, ← e3] at e5
  obtain ⟨_, μ, l, acc, _, p3, p4, pl, pa⟩ := good_all m c K Q Vl Wk bk Wq bq A t.val t.isLt
  have e5' : (outsAt0 m c t.val t.isLt).1 = k0_pay4 (F := Ideal) (fun y => ((acc y : ℝ) : EReal)) (fun y => ((l y : ℝ) : EReal)) := by
    rw [e5]; exact congrArg₂ (k0_pay4 (F := Ideal)) p4 p3
  have hfull : 128 * ((gk t).val + 1) = 4096 := by show 128 * (t.val % 32 + 1) = 4096; omega
  have hpos : ∀ r : Fin 2048, 0 < l (ix2 r (0 : Fin 1)) * Real.exp (μ (ix2 r (0 : Fin 1))) := fun r => by
    rw [pl r, hfull, sum_ext]
    exact Finset.sum_pos (fun k _ => Real.exp_pos _) Finset.univ_nonempty
  have hl : ∀ y, l y ≠ 0 := fun y => by
    obtain ⟨r, u, rfl⟩ : ∃ (r : Fin 2048) (u : Fin 1), y = ix2 r u := ⟨y 0, y 1, eq_ix2 y⟩
    obtain rfl : u = 0 := Subsingleton.elim _ _
    intro hz
    have := hpos r
    rw [hz, zero_mul] at this
    exact lt_irrefl _ this
  rw [e5', Cert.StepIdeal.out_eq l acc hl]
  show ((outB l acc (y 1) (y 2) : ℝ) : EReal) = ((attn K Q Vl Wk bk Wq bq (1 / 8) (gb t) (qrow (gq t) (y 1)) (y 2) : ℝ) : EReal)
  refine congrArg _ ?_
  unfold outB attn
  rw [quotient_of_scaled _ _ _ _ _ (Real.exp_pos _).ne' (pa (y 1) (y 2)) (pl (y 1)), hfull, sum_ext, sum_ext]
  rfl

/-- What a writing-back point writes back is the specification's block. -/
theorem flushed_eq (A : Args m c K Q Vl Wk bk Wq bq) (t : Fin cfg0.N) (hf : (cfg0.win 7).flush t = true) :
    (dats m 0 c).flushed 7 t = ((cfg0.win 7).blk t).view.read (Elt Ideal) (G K Q Vl Wk bk Wq bq (1 / 8)) := by
  rw [Cert.KernelIdeal.Value.flushed7]
  exact out_read t _ _ (out_block m c K Q Vl Wk bk Wq bq A t ((flush0_7 t).mp hf))

/-- The result array after the run is the specification. -/
theorem final (A : Args m c K Q Vl Wk bk Wq bq) : (dats m 0 c).arrAt 7 cfg0.N = G K Q Vl Wk bk Wq bq (1 / 8) :=
  final_of m c _ (flushed_eq m c K Q Vl Wk bk Wq bq A)

end Cert.KernelValue

end
-- ==== Proof.RefValue.lean ====
/- The reference program of scaled dot-product attention, read at real-valued inputs, is the specification.

   The program projects the keys and the queries (a row times the transposed weights, plus the bias), takes the
   scaled scores s k = (projected query · projected key k) / 8 of a query row against every key row, subtracts the
   row's maximum M, exponentiates, divides by the row sum L = ∑ k, exp (s k - M), and takes the weighted sum of the
   value rows. At real inputs every intermediate is a real number: sums and products of reals are reals, the maximum
   of finitely many reals is one of them, exp of a real is real, and L is positive, so the division is the ordinary
   one. The number M cancels between numerator and denominator:
     ∑ k, (exp (s k - M) / ∑ j, exp (s j - M)) * v k = (∑ k, exp (s k) * v k) / ∑ k, exp (s k),
   which is the specification's unshifted form. -/
import proofs.«125804_j75179107549594_2_alg».proof.Proof.Spec
import proofs.«125804_j75179107549594_2_alg».proof.Proof.Gen.ReferenceIdeal.Read
import proofs.«125804_j75179107549594_2_alg».proof.Proof.LibMax
import Idealize.ShloMosaic.PureOps.Ideal.Laws
import Idealize.ShloMosaic.Lib.ValueIdx
import Idealize.ShloMosaic.Lib.Pipeline.Value

noncomputable section

open scoped BigOperators

namespace Cert.RefSide

open Cert.ReferenceIdeal Cert.ReferenceIdeal.Gen Cert.ReferenceIdeal.Read Idealize.ShloMosaic Idealize.ShloMosaic.ValueIdx Cert.Attn

/-! ### Facts about real and extended real numbers -/

/-- The scale's word denotes one eighth: sign 0, exponent 124, significand 1.0, so 2 ^ (124 - 127). -/
theorem scale_word : Ideal.ofBits .f32 0x3E000000#32 = ((1 / 8 : ℝ) : EReal) := by
  simp [Ideal.ofBits, Ideal.ieee, -EReal.coe_mul]; norm_num

/-- Subtracting any real M from every score leaves the softmax-weighted mean unchanged: exp (s k - M) is
    exp (s k) / exp M, and the positive factor 1 / exp M cancels between the weights' numerators and their sum. -/
theorem softmax_shift {ι : Type} (t : Finset ι) (ht : t.Nonempty) (s v : ι → ℝ) (m : ℝ) :
    ∑ k ∈ t, (Real.exp (s k - m) * (1 / ∑ j ∈ t, Real.exp (s j - m))) * v k
      = (∑ k ∈ t, Real.exp (s k) * v k) / (∑ k ∈ t, Real.exp (s k)) := by
  have hS : 0 < ∑ j ∈ t, Real.exp (s j) := Finset.sum_pos (fun _ _ => Real.exp_pos _) ht
  have hc : 0 < Real.exp m := Real.exp_pos m
  have e : ∀ k, Real.exp (s k - m) = Real.exp (s k) / Real.exp m := fun k => Real.exp_sub _ _
  have hS' := hS.ne'
  have hc' := hc.ne'
  simp only [e, ← Finset.sum_div]
  rw [eq_div_iff hS', Finset.sum_mul]
  refine Finset.sum_congr rfl fun k _ => ?_
  field_simp

/-- The maximum of a row of 4096 reals, joined with minus infinity, is a real: the supremum of a nonempty finite
    family is attained, at a real. -/
theorem sup_coe_real (f : Fin 4096 → ℝ) :
    ∃ m : ℝ, max (⊥ : EReal) (Finset.univ.sup fun k : Fin 4096 => ((f k : ℝ) : EReal)) = (m : EReal) := by
  obtain ⟨k0, _, hk0⟩ := Finset.exists_mem_eq_sup (Finset.univ : Finset (Fin 4096)) Finset.univ_nonempty
    (fun k : Fin 4096 => ((f k : ℝ) : EReal))
  exact ⟨f k0, by rw [hk0, max_eq_right bot_le]⟩

/-! ### The program's stages at real inputs -/

/-- An array of reals read as an array of extended reals. -/
abbrev up {s : Shape} (X : s.Idx → ℝ) : s.Idx → EReal := fun i => ((X i : ℝ) : EReal)

variable (K Q V : SA.Idx → ℝ) (Wk : SW.Idx → ℝ) (bk : SB.Idx → ℝ) (Wq : SW.Idx → ℝ) (bq : SB.Idx → ℝ)

/-- The projected keys: entry (b, n, j) is the sum over d of the row's entry d times the weight (j, d), plus bias j. -/
theorem projK_eq (b : Fin 8) (n : Fin 4096) (j : Fin 64) :
    val_main_v3 (F := Ideal) (up K) (up Wk) (up bk) (ix3 b n j) = ((proj K Wk bk b n j : ℝ) : EReal) := by
  rw [val_main_v3_apply, val_main_v0_apply, val_main_v2_apply, val_main_v1_apply]
  have el : ∀ k : Fin 512, lidx_main_v0 (ix3 b n j) k = ix3 b n k := fun k => funext fun a => Fin.ext (by match a with | ⟨0, _⟩ => rfl | ⟨1, _⟩ => rfl | ⟨2, _⟩ => rfl)
  have er : ∀ k : Fin 512, ridx_main_v0 (ix3 b n j) k = ix2 j k := fun k => funext fun a => Fin.ext (by match a with | ⟨0, _⟩ => rfl | ⟨1, _⟩ => rfl)
  have eb : idx_main_v1 (idx_main_v2 (ix3 b n j)) = ix1 j := funext fun a => Fin.ext (by match a with | ⟨0, _⟩ => rfl)
  simp only [el, er, eb, up, Ideal.addf_def, ← EReal.coe_mul]
  rw [coe_sum, ← EReal.coe_add]; rfl

/-- The projected queries, likewise. -/
theorem projQ_eq (b : Fin 8) (n : Fin 4096) (j : Fin 64) :
    val_main_v7 (F := Ideal) (up Q) (up Wq) (up bq) (ix3 b n j) = ((proj Q Wq bq b n j : ℝ) : EReal) := by
  rw [val_main_v7_apply, val_main_v4_apply, val_main_v6_apply, val_main_v5_apply]
  have el : ∀ k : Fin 512, lidx_main_v4 (ix3 b n j) k = ix3 b n k := fun k => funext fun a => Fin.ext (by match a with | ⟨0, _⟩ => rfl | ⟨1, _⟩ => rfl | ⟨2, _⟩ => rfl)
  have er : ∀ k : Fin 512, ridx_main_v4 (ix3 b n j) k = ix2 j k := fun k => funext fun a => Fin.ext (by match a with | ⟨0, _⟩ => rfl | ⟨1, _⟩ => rfl)
  have eb : idx_main_v5 (idx_main_v6 (ix3 b n j)) = ix1 j := funext fun a => Fin.ext (by match a with | ⟨0, _⟩ => rfl)
  simp only [el, er, eb, up, Ideal.addf_def, ← EReal.coe_mul]
  rw [coe_sum, ← EReal.coe_add]; rfl

/-- The scaled scores: entry (b, q, k) is the dot product of projected query row q with projected key row k, over 8. -/
theorem scores_eq (b : Fin 8) (q k : Fin 4096) :
    val_main_v10 (F := Ideal) (up K) (up Q) (up Wk) (up bk) (up Wq) (up bq) (ix3 b q k)
      = ((score K Q Wk bk Wq bq (1 / 8) b q k : ℝ) : EReal) := by
  rw [val_main_v10_apply, val_main_v8_apply, val_main_v9_apply, val_main_cst_apply]
  have el : ∀ j : Fin 64, lidx_main_v8 (ix3 b q k) j = ix3 b q j := fun j => funext fun a => Fin.ext (by match a with | ⟨0, _⟩ => rfl | ⟨1, _⟩ => rfl | ⟨2, _⟩ => rfl)
  have er : ∀ j : Fin 64, ridx_main_v8 (ix3 b q k) j = ix3 b k j := fun j => funext fun a => Fin.ext (by match a with | ⟨0, _⟩ => rfl | ⟨1, _⟩ => rfl | ⟨2, _⟩ => rfl)
  simp only [el, er, projQ_eq, projK_eq, Ideal.mulf_def, Ideal.ofBits_def, scale_word, ← EReal.coe_mul]
  rw [coe_sum, ← EReal.coe_mul]; rfl

/-- The row maximum that the program subtracts is some real number: the supremum over k of the row's scores, which
    are reals, joined with minus infinity. Which real it is does not matter below. -/
theorem rowmax_real (b : Fin 8) (q : Fin 4096) :
    ∃ m : ℝ, val_main_v13 (F := Ideal) (up K) (up Q) (up Wk) (up bk) (up Wq) (up bq) (ix2 b q) = (m : EReal) := by
  have h : S8x4096x4096.Reduces [2] S8x4096 := by decide
  have e : ∀ k : Fin 4096, h.lift (ix2 b q) k = ix3 b q k := fun k => funext fun a => Fin.ext (by match a with | ⟨0, _⟩ => rfl | ⟨1, _⟩ => rfl | ⟨2, _⟩ => rfl)
  rw [val_main_v13_apply, val_main_v12_apply, val_main_cst_1_apply]
  unfold val_main_v11 val_main_cst_0
  rw [Cert.LibMax.hostReduce_max_single _ reducesTo_S8x4096x4096_S8x4096_d2 h h_S_ (ix2 b q)]
  simp only [Ideal.maximumf_def, Ideal.ofBits_def, Cert.LibMax.ofBits_neg_inf]
  obtain ⟨m, hm⟩ := sup_coe_real fun k => score K Q Wk bk Wq bq (1 / 8) b q k
  refine ⟨m, ?_⟩
  rw [← hm]
  refine congrArg (max ⊥) (Finset.sup_congr rfl fun (k : Fin 4096) _ => ?_)
  exact (congrArg (val_main_v10 (F := Ideal) (up K) (up Q) (up Wk) (up bk) (up Wq) (up bq)) (e k)).trans
    (scores_eq K Q Wk bk Wq bq b q k)

section Row

variable (b : Fin 8) (q : Fin 4096) (m : ℝ)
  (hm : val_main_v13 (F := Ideal) (up K) (up Q) (up Wk) (up bk) (up Wq) (up bq) (ix2 b q) = (m : EReal))
include hm

/-- The exponentials: entry (b, q, k) is exp of the score minus the row's maximum. -/
theorem exps_eq (k : Fin 4096) :
    val_main_v17 (F := Ideal) (up K) (up Q) (up Wk) (up bk) (up Wq) (up bq) (ix3 b q k)
      = ((Real.exp (score K Q Wk bk Wq bq (1 / 8) b q k - m) : ℝ) : EReal) := by
  rw [val_main_v17_apply, val_main_v16_apply, val_main_v15_apply, val_main_v14_apply]
  have e : idx_main_v14 (idx_main_v15 (ix3 b q k)) = ix2 b q := funext fun a => Fin.ext (by match a with | ⟨0, _⟩ => rfl | ⟨1, _⟩ => rfl)
  rw [e, hm, scores_eq]
  simp only [Ideal.hostUnary_exp_def, Ideal.subf_def, ← EReal.coe_sub, Ideal.exp_coe]

/-- The row sum: entry (b, q) is the sum over k of the exponentials, from zero. -/
theorem rowsum_eq :
    val_main_v18 (F := Ideal) (up K) (up Q) (up Wk) (up bk) (up Wq) (up bq) (ix2 b q)
      = ((∑ k : Fin 4096, Real.exp (score K Q Wk bk Wq bq (1 / 8) b q k - m) : ℝ) : EReal) := by
  rw [val_main_v18_apply, val_main_cst_2_apply]
  have e : ∀ k : Fin 4096, idx_main_v18 (ix2 b q) k = ix3 b q k := fun k => funext fun a => Fin.ext (by match a with | ⟨0, _⟩ => rfl | ⟨1, _⟩ => rfl | ⟨2, _⟩ => rfl)
  simp only [e, exps_eq K Q Wk bk Wq bq b q m hm, Ideal.ofBits_def, Ideal.ofBits_zero_f32, zero_add]
  exact coe_sum _ _

/-- The weights: entry (b, q, k) is the exponential over the row sum. The row sum is positive, so the quotient is the
    ordinary one. -/
theorem weights_eq (k : Fin 4096) :
    val_main_v21 (F := Ideal) (up K) (up Q) (up Wk) (up bk) (up Wq) (up bq) (ix3 b q k)
      = ((Real.exp (score K Q Wk bk Wq bq (1 / 8) b q k - m)
          * (1 / ∑ j : Fin 4096, Real.exp (score K Q Wk bk Wq bq (1 / 8) b q j - m)) : ℝ) : EReal) := by
  rw [val_main_v21_apply, val_main_v20_apply, val_main_v19_apply]
  have e : idx_main_v19 (idx_main_v20 (ix3 b q k)) = ix2 b q := funext fun a => Fin.ext (by match a with | ⟨0, _⟩ => rfl | ⟨1, _⟩ => rfl)
  have hL : (∑ j : Fin 4096, Real.exp (score K Q Wk bk Wq bq (1 / 8) b q j - m)) ≠ 0 :=
    (Finset.sum_pos (fun _ _ => Real.exp_pos _) Finset.univ_nonempty).ne'
  rw [e, rowsum_eq K Q Wk bk Wq bq b q m hm, exps_eq K Q Wk bk Wq bq b q m hm, Ideal.hostDivf_def, Ideal.div_coe hL,
    ← EReal.coe_mul]

end Row

/-- The result at (b, q, d): the weighted sum of the value rows' entries d, which is the specification's quotient. -/
theorem result_at (b : Fin 8) (q : Fin 4096) (d : Fin 512) :
    val_main_v22 (F := Ideal) (up K) (up Q) (up V) (up Wk) (up bk) (up Wq) (up bq) (ix3 b q d)
      = ((attn K Q V Wk bk Wq bq (1 / 8) b q d : ℝ) : EReal) := by
  obtain ⟨m, hm⟩ := rowmax_real K Q Wk bk Wq bq b q
  rw [val_main_v22_apply]
  have el : ∀ k : Fin 4096, lidx_main_v22 (ix3 b q d) k = ix3 b q k := fun k => funext fun a => Fin.ext (by match a with | ⟨0, _⟩ => rfl | ⟨1, _⟩ => rfl | ⟨2, _⟩ => rfl)
  have er : ∀ k : Fin 4096, ridx_main_v22 (ix3 b q d) k = ix3 b k d := fun k => funext fun a => Fin.ext (by match a with | ⟨0, _⟩ => rfl | ⟨1, _⟩ => rfl | ⟨2, _⟩ => rfl)
  simp only [el, er, weights_eq K Q Wk bk Wq bq b q m hm, up, ← EReal.coe_mul]
  rw [coe_sum, softmax_shift Finset.univ Finset.univ_nonempty _ _ m]; rfl

/-- The reference program's result at real inputs is the specification, index by index. -/
theorem result_eq (K Q V : SA.Idx → ℝ) (Wk : SW.Idx → ℝ) (bk : SB.Idx → ℝ) (Wq : SW.Idx → ℝ) (bq : SB.Idx → ℝ) :
    Cert.ReferenceIdeal.Read.val_main_v22 (F := Ideal) (fun i => ((K i : ℝ) : EReal)) (fun i => ((Q i : ℝ) : EReal)) (fun i => ((V i : ℝ) : EReal))
      (fun i => ((Wk i : ℝ) : EReal)) (fun i => ((bk i : ℝ) : EReal)) (fun i => ((Wq i : ℝ) : EReal)) (fun i => ((bq i : ℝ) : EReal))
    = Cert.Attn.G K Q V Wk bk Wq bq (1 / 8) := by
  funext i
  obtain ⟨b, q, d, rfl⟩ : ∃ (b : Fin 8) (q : Fin 4096) (d : Fin 512), i = ix3 b q d := ⟨i 0, i 1, i 2, eq_ix3 i⟩
  exact result_at K Q V Wk bk Wq bq b q d

end Cert.RefSide

end
-- ==== Proof.lean ====
/- Scaled dot-product attention computed block by block with a running softmax equals the plain softmax form.

   The kernel projects 2048 query rows at a time (with the scale 1/8 folded into the query weights and bias), walks the
   4096 key rows in 32 blocks of 128, and per query row keeps a running maximum, a normaliser and an accumulator that it
   rescales whenever the maximum grows; after the last block it divides. The reference projects keys and queries,
   scales the score matrix by 1/8, subtracts each row's maximum, exponentiates, divides by the row sums and multiplies
   by the values. Over the extended reals with finite inputs both are, at every index (b, q, d),
     (sum over k of exp (score b q k) * V b k d) / (sum over k of exp (score b q k)):
   the subtracted maximum cancels between numerator and denominator on either side (any real shift would), the
   rescalings of the running softmax keep the two sums up to the common factor exp (shift), the folded scale is the
   distributive law, and the reciprocal-then-multiply of the kernel is the division of the reference because the
   normaliser is a positive real. Finiteness of the inputs is what makes every intermediate a real number.

   The modules: Spec (the function above), LibSoftmax and Rows (the real-number laws), Block and Grid (one grid point),
   Finite (finite inputs are real arrays), RefValue (the reference computes the specification), StepLayout and StepIdeal
   (the body's stored values at real inputs), Pieces and Steps (what each case of the body leaves, at any float
   instance), Windows (which rows each block holds, and that the written-back blocks cover the result), Inv and
   KernelValue (the invariant, and the kernel's result array). -/
import proofs.«125804_j75179107549594_2_alg».proof.Defs
import proofs.«125804_j75179107549594_2_alg».proof.Proof.Gen.Kernel
import proofs.«125804_j75179107549594_2_alg».proof.Proof.Gen.Kernel.Skeleton
import proofs.«125804_j75179107549594_2_alg».proof.Proof.Gen.Kernel.Launch
import proofs.«125804_j75179107549594_2_alg».proof.Proof.Gen.Kernel.Points
import proofs.«125804_j75179107549594_2_alg».proof.Proof.Gen.Kernel.Frame
import proofs.«125804_j75179107549594_2_alg».proof.Proof.Gen.KernelIdeal
import proofs.«125804_j75179107549594_2_alg».proof.Proof.Gen.KernelIdeal.Skeleton
import proofs.«125804_j75179107549594_2_alg».proof.Proof.Gen.KernelIdeal.Launch
import proofs.«125804_j75179107549594_2_alg».proof.Proof.Gen.KernelIdeal.Points
import proofs.«125804_j75179107549594_2_alg».proof.Proof.Gen.KernelIdeal.Frame
import proofs.«125804_j75179107549594_2_alg».proof.Proof.Gen.ReferenceIdeal
import proofs.«125804_j75179107549594_2_alg».proof.Proof.Gen.Pre_finite_inputs
import proofs.«125804_j75179107549594_2_alg».proof.Proof.Gen.KernelIdeal.Value
import proofs.«125804_j75179107549594_2_alg».proof.Proof.Gen.ReferenceIdeal.Run
import proofs.«125804_j75179107549594_2_alg».proof.Proof.Gen.ReferenceIdeal.Read
import proofs.«125804_j75179107549594_2_alg».proof.Proof.KernelValue
import proofs.«125804_j75179107549594_2_alg».proof.Proof.RefValue
import proofs.«125804_j75179107549594_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From finite arguments the kernel's result array and the reference's result are one array: both are the
    specification at the real parts of the arguments (KernelValue.final, RefSide.result_eq). The common value is named
    by the reference's own term at the launch arguments. -/
theorem algebraic : Cert.algebraic_KernelIdeal_ReferenceIdeal := by
  intro m ρ m' ρ' hpre hagree
  refine ⟨fun c => Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩) (Cert.KernelIdeal.Value.run_blocks m ρ)
    obtain ⟨⟨K, hK⟩, ⟨Q, hQ⟩, ⟨V, hV⟩, ⟨Wk, hWk⟩, ⟨bk, hbk⟩, ⟨Wq, hWq⟩, ⟨bq, hbq⟩⟩ := Cert.Finite.real_args _ _ _ _ _ _ _ (hpre c)
    refine (Cert.KernelValue.final m c K Q V Wk bk Wq bq ⟨hK, hQ, hV, hWk, hbk, hWq, hbq⟩).trans ?_
    show _ = Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    rw [hK, hQ, hV, hWk, hbk, hWq, hbq]
    exact (Cert.RefSide.result_eq K Q V Wk bk Wq bq).symm
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
